-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S10x256 : Shape := ⟨2, ![10, 256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S10x256 : S_.BroadcastsInDim S10x256 (![] : Fin 0 → Fin S10x256.rank)
  reducesTo_S10x256_S_d0_1 : S10x256.ReducesTo [0, 1] S_

variable [Facts]

def fn {F : FTy → Type} [FloatOps F] (main_arg0 : FVec F S16x256x128x128 .f32) (main_arg1 : FVec F S10x256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S10x256 .f32 := Host.absf main_arg1
  let main_cst_0 : FVec F S_ .f32 := constant S_ .f32 0x7F800000#32
  let main_v5 : FVec F S10x256 .f32 := broadcastInDim S10x256 ![] bcast_S_S10x256 main_cst_0
  let main_v6 : IVec S10x256 1 := cmpf .olt main_v4 main_v5
  let main_c_1 : IVec S_ 1 := constantI S_ 1 1#1
  let main_v7 : IVec S_ 1 := (fun x v => Host.reduce IntOp.andi x v reducesTo_S10x256_S_d0_1 h_S_) main_v6 main_c_1
  let main_v8 : IVec S_ 1 := andi main_v3 main_v7
  main_v8
-- ==== Kernel.lean ====
abbrev S16x256x128x128 : Shape := ⟨4, ![16, 256, 128, 128]⟩
abbrev S10x256 : Shape := ⟨2, ![10, 256]⟩
abbrev S16x256 : Shape := ⟨2, ![16, 256]⟩
abbrev S16x128x16x128 : Shape := ⟨4, ![16, 128, 16, 128]⟩
abbrev S16x128 : Shape := ⟨2, ![16, 128]⟩
abbrev S16x128x16 : Shape := ⟨3, ![16, 128, 16]⟩
abbrev S16x10 : Shape := ⟨2, ![16, 10]⟩
abbrev S16x2x5 : Shape := ⟨3, ![16, 2, 5]⟩
abbrev S_ : Shape := ⟨0, ![]⟩
abbrev S1x16x1x2x1x5 : Shape := ⟨6, ![1, 16, 1, 2, 1, 5]⟩
abbrev S1x16x128x2x1x5 : Shape := ⟨6, ![1, 16, 128, 2, 1, 5]⟩
abbrev S16x256x5 : Shape := ⟨3, ![16, 256, 5]⟩
abbrev S16x256x128x1 : Shape := ⟨4, ![16, 256, 128, 1]⟩
abbrev S16x256x128x4 : Shape := ⟨4, ![16, 256, 128, 4]⟩
abbrev S16x256x128x132 : Shape := ⟨4, ![16, 256, 128, 132]⟩
abbrev S16x256x128x136 : Shape := ⟨4, ![16, 256, 128, 136]⟩
abbrev S1x64x128x136 : Shape := ⟨4, ![1, 64, 128, 136]⟩
abbrev S1x64x5 : Shape := ⟨3, ![1, 64, 5]⟩
abbrev S1x64x128x128 : Shape := ⟨4, ![1, 64, 128, 128]⟩
abbrev S1x64x1 : Shape := ⟨3, ![1, 64, 1]⟩
abbrev S64 : Shape := ⟨1, ![64]⟩
abbrev S64x1x1 : Shape := ⟨3, ![64, 1, 1]⟩
abbrev S64x128x128 : Shape := ⟨3, ![64, 128, 128]⟩

abbrev nBuf : Space → Nat
  | .hbm => 26
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S10x256, .f32⟩
  | .hbm, ⟨2, _⟩ => ⟨S16x256, .f32⟩
  | .hbm, ⟨3, _⟩ => ⟨S16x10, .f32⟩
  | .hbm, ⟨4, _⟩ => ⟨S16x2x5, .f32⟩
  | .hbm, ⟨5, _⟩ => ⟨S16x2x5, .f32⟩
  | .hbm, ⟨6, _⟩ => ⟨S16x2x5, .f32⟩
  | .hbm, ⟨7, _⟩ => ⟨S_, .f32⟩
  | .hbm, ⟨8, _⟩ => ⟨S16x2x5, .f32⟩
  | .hbm, ⟨9, _⟩ => ⟨S16x2x5, .f32⟩
  | .hbm, ⟨10, _⟩ => ⟨S_, .f32⟩
  | .hbm, ⟨11, _⟩ => ⟨S16x2x5, .f32⟩
  | .hbm, ⟨12, _⟩ => ⟨S16x2x5, .f32⟩
  | .hbm, ⟨13, _⟩ => ⟨S1x16x1x2x1x5, .f32⟩
  | .hbm, ⟨14, _⟩ => ⟨S1x16x128x2x1x5, .f32⟩
  | .hbm, ⟨15, _⟩ => ⟨S16x256x5, .f32⟩
  | .hbm, ⟨16, _⟩ => ⟨S_, .i32⟩
  | .hbm, ⟨17, _⟩ => ⟨S16x256x128x1, .f32⟩
  | .hbm, ⟨18, _⟩ => ⟨S16x256x128x4, .f32⟩
  | .hbm, ⟨19, _⟩ => ⟨S16x256x128x4, .f32⟩
  | .hbm, ⟨20, _⟩ => ⟨S16x256x128x132, .f32⟩
  | .hbm, ⟨21, _⟩ => ⟨S16x256x128x1, .f32⟩
  | .hbm, ⟨22, _⟩ => ⟨S16x256x128x4, .f32⟩
  | .hbm, ⟨23, _⟩ => ⟨S16x256x128x4, .f32⟩
  | .hbm, ⟨24, _⟩ => ⟨S16x256x128x136, .f32⟩
  | .hbm, ⟨25, _⟩ => ⟨S16x256x128x128, .f32⟩
  | .local _ .vmem, ⟨0, _⟩ => ⟨S16x128x16x128, .f32⟩
  | .local _ .vmem, ⟨1, _⟩ => ⟨S16x128x16x128, .f32⟩
  | .local _ .vmem, ⟨2, _⟩ => ⟨S16x128, .f32⟩
  | .local _ .vmem, ⟨3, _⟩ => ⟨S16x128, .f32⟩
  | .local _ .vmem, ⟨4, _⟩ => ⟨S1x64x128x136, .f32⟩
  | .local _ .vmem, ⟨5, _⟩ => ⟨S1x64x128x136, .f32⟩
  | .local _ .vmem, ⟨6, _⟩ => ⟨S1x64x5, .f32⟩
  | .local _ .vmem, ⟨7, _⟩ => ⟨S1x64x5, .f32⟩
  | .local _ .vmem, ⟨8, _⟩ => ⟨S1x64x128x128, .f32⟩
  | .local _ .vmem, ⟨9, _⟩ => ⟨S1x64x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x128x136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S16x128_S16x128_0_0 : ∀ a, (![0, 0] : Fin 2 → Nat) a + S16x128.size a ≤ S16x128.size a
  h_S16x128 : 0 < S16x128.numel
  inb_S16x128x16x128_S16x128x16x128_0_0_0_0 : ∀ a, (![0, 0, 0, 0] : Fin 4 → Nat) a + S16x128x16x128.size a ≤ S16x128x16x128.size a
  h_S16x128x16x128 : 0 < S16x128x16x128.numel
  reduces_S16x128x16x128_S16x128x16 : S16x128x16x128.Reduces [3] S16x128x16
  reduces_S16x128x16_S16x128 : S16x128x16.Reduces [2] S16x128
  shapeCasts_S16x128_S16x128 : S16x128.ShapeCasts S16x128
  shapeCasts_S16x10_S16x2x5 : S16x10.ShapeCasts S16x2x5
  bcast_S_S16x2x5 : S_.BroadcastsInDim S16x2x5 (![] : Fin 0 → Fin S16x2x5.rank)
  shapeCasts_S16x2x5_S1x16x1x2x1x5 : S16x2x5.ShapeCasts S1x16x1x2x1x5
  bcast_S1x16x1x2x1x5_S1x16x128x2x1x5_0_1_2_3_4_5 : S1x16x1x2x1x5.BroadcastsInDim S1x16x128x2x1x5 (![0, 1, 2, 3, 4, 5] : Fin 6 → Fin S1x16x128x2x1x5.rank)
  shapeCasts_S1x16x128x2x1x5_S16x256x5 : S1x16x128x2x1x5.ShapeCasts S16x256x5
  slices_S16x256x128x128_S16x256x128x1_0_0_0_0 : S16x256x128x128.Slices ![0, 0, 0, 0] S16x256x128x1
  slices_S16x256x128x128_S16x256x128x4_0_0_0_1 : S16x256x128x128.Slices ![0, 0, 0, 1] S16x256x128x4
  concatenates_S16x256x128x4_S16x256x128x128_S16x256x128x132_d3 : Shape.Concatenates [S16x256x128x4, S16x256x128x128] S16x256x128x132 3
  slices_S16x256x128x132_S16x256x128x1_0_0_0_131 : S16x256x128x132.Slices ![0, 0, 0, 131] S16x256x128x1
  slices_S16x256x128x132_S16x256x128x4_0_0_0_127 : S16x256x128x132.Slices ![0, 0, 0, 127] S16x256x128x4
  concatenates_S16x256x128x132_S16x256x128x4_S16x256x128x136_d3 : Shape.Concatenates [S16x256x128x132, S16x256x128x4] S16x256x128x136 3
  inb_S1x64x5_S1x64x1_0_0_0 : ∀ a, (![0, 0, 0] : Fin 3 → Nat) a + S1x64x1.size a ≤ S1x64x5.size a
  h_S1x64x1 : 0 < S1x64x1.numel
  shapeCasts_S1x64x1_S64 : S1x64x1.ShapeCasts S64
  shapeCasts_S64_S64x1x1 : S64.ShapeCasts S64x1x1
  inb_S1x64x128x136_S1x64x128x128_0_0_0_0 : ∀ a, (![0, 0, 0, 0] : Fin 4 → Nat) a + S1x64x128x128.size a ≤ S1x64x128x136.size a
  h_S1x64x128x128 : 0 < S1x64x128x128.numel
  shapeCasts_S1x64x128x128_S64x128x128 : S1x64x128x128.ShapeCasts S64x128x128
  broadcasts_S64x1x1_S64x128x128 : S64x1x1.Broadcasts S64x128x128
  inb_S1x64x5_S1x64x1_0_0_1 : ∀ a, (![0, 0, 1] : Fin 3 → Nat) a + S1x64x1.size a ≤ S1x64x5.size a
  inb_S1x64x128x136_S1x64x128x128_0_0_0_2 : ∀ a, (![0, 0, 0, 2] : Fin 4 → Nat) a + S1x64x128x128.size a ≤ S1x64x128x136.size a
  inb_S1x64x5_S1x64x1_0_0_2 : ∀ a, (![0, 0, 2] : Fin 3 → Nat) a + S1x64x1.size a ≤ S1x64x5.size a
  inb_S1x64x128x136_S1x64x128x128_0_0_0_4 : ∀ a, (![0, 0, 0, 4] : Fin 4 → Nat) a + S1x64x128x128.size a ≤ S1x64x128x136.size a
  inb_S1x64x5_S1x64x1_0_0_3 : ∀ a, (![0, 0, 3] : Fin 3 → Nat) a + S1x64x1.size a ≤ S1x64x5.size a
  inb_S1x64x128x136_S1x64x128x128_0_0_0_6 : ∀ a, (![0, 0, 0, 6] : Fin 4 → Nat) a + S1x64x128x128.size a ≤ S1x64x128x136.size a
  inb_S1x64x5_S1x64x1_0_0_4 : ∀ a, (![0, 0, 4] : Fin 3 → Nat) a + S1x64x1.size a ≤ S1x64x5.size a
  inb_S1x64x128x136_S1x64x128x128_0_0_0_8 : ∀ a, (![0, 0, 0, 8] : Fin 4 → Nat) a + S1x64x128x128.size a ≤ S1x64x128x136.size a
  inb_S1x64x128x128_S1x64x128x128_0_0_0_0 : ∀ a, (![0, 0, 0, 0] : Fin 4 → Nat) a + S1x64x128x128.size a ≤ S1x64x128x128.size a
  shapeCasts_S64x128x128_S1x64x128x128 : S64x128x128.ShapeCasts S1x64x128x128
  dot_S16x256_S10x256_S16x10_1_1_0_0_n_n_wf : DotDims.WF S16x256 S10x256 S16x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x16x128.size a ≤ S16x256x128x128.size a
  hwx0_0 : ∀ i : grid0.Coords, EltTy.bits .f32 = 32 ∨ (Rect.block (s := S16x256x128x128) S16x128x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x256.size a
  hwx0_1 : ∀ i : grid0.Coords, EltTy.bits .f32 = 32 ∨ (Rect.block (s := S16x256) S16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128x136.size a ≤ S16x256x128x136.size a
  hwx1_0 : ∀ i : grid1.Coords, EltTy.bits .f32 = 32 ∨ (Rect.block (s := S16x256x128x136) S1x64x128x136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x5.size a ≤ S16x256x5.size a
  hwx1_1 : ∀ i : grid1.Coords, EltTy.bits .f32 = 32 ∨ (Rect.block (s := S16x256x5) S1x64x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128x128.size a ≤ S16x256x128x128.size a
  hwx1_2 : ∀ i : grid1.Coords, EltTy.bits .f32 = 32 ∨ (Rect.block (s := S16x256x128x128) S1x64x128x128.size (cc1_transform_2 i) (hinb1_2 i)).WholeWords (EltTy.packing .f32)

variable [Facts₀]

def dot_S16x256_S10x256_S16x10_1_1_0_0_n_n : DotDims S16x256 S10x256 S16x10 where
  lhsContracting := [1]
  rhsContracting := [1]
  lhsNonContracting := [0]
  rhsNonContracting := [0]
  lhsBatch := []
  rhsBatch := []
  wf := dot_S16x256_S10x256_S16x10_1_1_0_0_n_n_wf

abbrev win0_0 : Pipeline.Window sig grid0 :=
  Pipeline.Window.ofSpec (Memref.whole main_arg0) S16x128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v12) S1x64x128x136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x64x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S10x256 : Shape := ⟨2, ![10, 256]⟩
abbrev S_ : Shape := ⟨0, ![]⟩
abbrev S16x256 : Shape := ⟨2, ![16, 256]⟩
abbrev S16x10 : Shape := ⟨2, ![16, 10]⟩
abbrev S16x2x5 : Shape := ⟨3, ![16, 2, 5]⟩
abbrev S256 : Shape := ⟨1, ![256]⟩
abbrev S256x1 : Shape := ⟨2, ![256, 1]⟩
abbrev S16x256x5 : Shape := ⟨3, ![16, 256, 5]⟩
abbrev S16x256x128x1 : Shape := ⟨4, ![16, 256, 128, 1]⟩
abbrev S16x256x128x4 : Shape := ⟨4, ![16, 256, 128, 4]⟩
abbrev S16x256x128x132 : Shape := ⟨4, ![16, 256, 128, 132]⟩
abbrev S16x256x128x136 : Shape := ⟨4, ![16, 256, 128, 136]⟩
abbrev S16x256x1 : Shape := ⟨3, ![16, 256, 1]⟩
abbrev S16x256x1x1 : Shape := ⟨4, ![16, 256, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S10x256, .f32⟩
  | .hbm, ⟨2, _⟩ => ⟨S_, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S16x10, .f32⟩
  | .hbm, ⟨8, _⟩ => ⟨S16x2x5, .f32⟩
  | .hbm, ⟨9, _⟩ => ⟨S16x2x5, .f32⟩
  | .hbm, ⟨10, _⟩ => ⟨S16x2x5, .f32⟩
  | .hbm, ⟨11, _⟩ => ⟨S_, .f32⟩
  | .hbm, ⟨12, _⟩ => ⟨S16x2x5, .f32⟩
  | .hbm, ⟨13, _⟩ => ⟨S16x2x5, .f32⟩
  | .hbm, ⟨14, _⟩ => ⟨S_, .f32⟩
  | .hbm, ⟨15, _⟩ => ⟨S16x2x5, .f32⟩
  | .hbm, ⟨16, _⟩ => ⟨S16x2x5, .f32⟩
  | .hbm, ⟨17, _⟩ => ⟨S256, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S_, .i32⟩
  | .hbm, ⟨33, _⟩ => ⟨S_, .i1⟩
  | .hbm, ⟨34, _⟩ => ⟨S256, .i1⟩
  | .hbm, ⟨35, _⟩ => ⟨S256, .i1⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S256x1, .i32⟩
  | .hbm, ⟨48, _⟩ => ⟨S16x256x5, .f32⟩
  | .hbm, ⟨49, _⟩ => ⟨S_, .i32⟩
  | .hbm, ⟨50, _⟩ => ⟨S16x256x128x1, .f32⟩
  | .hbm, ⟨51, _⟩ => ⟨S16x256x128x4, .f32⟩
  | .hbm, ⟨52, _⟩ => ⟨S16x256x128x4, .f32⟩
  | .hbm, ⟨53, _⟩ => ⟨S16x256x128x132, .f32⟩
  | .hbm, ⟨54, _⟩ => ⟨S16x256x128x1, .f32⟩
  | .hbm, ⟨55, _⟩ => ⟨S16x256x128x4, .f32⟩
  | .hbm, ⟨56, _⟩ => ⟨S16x256x128x4, .f32⟩
  | .hbm, ⟨57, _⟩ => ⟨S16x256x128x136, .f32⟩
  | .hbm, ⟨58, _⟩ => ⟨S16x256x1, .f32⟩
  | .hbm, ⟨59, _⟩ => ⟨S16x256, .f32⟩
  | .hbm, ⟨60, _⟩ => ⟨S16x256x1x1, .f32⟩
  | .hbm, ⟨61, _⟩ => ⟨S16x256x128x128, .f32⟩
  | .hbm, ⟨62, _⟩ => ⟨S16x256x128x128, .f32⟩
  | .hbm, ⟨63, _⟩ => ⟨S16x256x128x128, .f32⟩
  | .hbm, ⟨64, _⟩ => ⟨S16x256x1, .f32⟩
  | .hbm, ⟨65, _⟩ => ⟨S16x256, .f32⟩
  | .hbm, ⟨66, _⟩ => ⟨S16x256x1x1, .f32⟩
  | .hbm, ⟨67, _⟩ => ⟨S16x256x128x128, .f32⟩
  | .hbm, ⟨68, _⟩ => ⟨S16x256x128x128, .f32⟩
  | .hbm, ⟨69, _⟩ => ⟨S16x256x128x128, .f32⟩
  | .hbm, ⟨70, _⟩ => ⟨S16x256x128x128, .f32⟩
  | .hbm, ⟨71, _⟩ => ⟨S16x256x1, .f32⟩
  | .hbm, ⟨72, _⟩ => ⟨S16x256, .f32⟩
  | .hbm, ⟨73, _⟩ => ⟨S16x256x1x1, .f32⟩
  | .hbm, ⟨74, _⟩ => ⟨S16x256x128x128, .f32⟩
  | .hbm, ⟨75, _⟩ => ⟨S16x256x128x128, .f32⟩
  | .hbm, ⟨76, _⟩ => ⟨S16x256x128x128, .f32⟩
  | .hbm, ⟨77, _⟩ => ⟨S16x256x128x128, .f32⟩
  | .hbm, ⟨78, _⟩ => ⟨S16x256x1, .f32⟩
  | .hbm, ⟨79, _⟩ => ⟨S16x256, .f32⟩
  | .hbm, ⟨80, _⟩ => ⟨S16x256x1x1, .f32⟩
  | .hbm, ⟨81, _⟩ => ⟨S16x256x128x128, .f32⟩
  | .hbm, ⟨82, _⟩ => ⟨S16x256x128x128, .f32⟩
  | .hbm, ⟨83, _⟩ => ⟨S16x256x128x128, .f32⟩
  | .hbm, ⟨84, _⟩ => ⟨S16x256x128x128, .f32⟩
  | .hbm, ⟨85, _⟩ => ⟨S16x256x1, .f32⟩
  | .hbm, ⟨86, _⟩ => ⟨S16x256, .f32⟩
  | .hbm, ⟨87, _⟩ => ⟨S16x256x1x1, .f32⟩
  | .hbm, ⟨88, _⟩ => ⟨S16x256x128x128, .f32⟩
  | .hbm, ⟨89, _⟩ => ⟨S16x256x128x128, .f32⟩
  | .hbm, ⟨90, _⟩ => ⟨S16x256x128x128, .f32⟩
  | .hbm, ⟨91, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v12 : Ref sig .tc := ⟨.hbm, 39, rfl⟩
abbrev main_c_3 : Ref sig .tc := ⟨.hbm, 40, rfl⟩
abbrev main_v13 : Ref sig .tc := ⟨.hbm, 41, rfl⟩
abbrev main_v14 : Ref sig .tc := ⟨.hbm, 42, rfl⟩
abbrev main_c_4 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  shapeCasts_S16x10_S16x2x5 : S16x10.ShapeCasts S16x2x5
  bcast_S_S16x2x5 : S_.BroadcastsInDim S16x2x5 (![] : Fin 0 → Fin S16x2x5.rank)
  bcast_S_S256 : S_.BroadcastsInDim S256 (![] : Fin 0 → Fin S256.rank)
  bcast_S256_S256x1_0 : S256.BroadcastsInDim S256x1 (![0] : Fin 1 → Fin S256x1.rank)
  slices_S16x256x128x128_S16x256x128x1_0_0_0_0 : S16x256x128x128.Slices ![0, 0, 0, 0] S16x256x128x1
  slices_S16x256x128x128_S16x256x128x4_0_0_0_1 : S16x256x128x128.Slices ![0, 0, 0, 1] S16x256x128x4
  concatenates_S16x256x128x4_S16x256x128x128_S16x256x128x132_d3 : Shape.Concatenates [S16x256x128x4, S16x256x128x128] S16x256x128x132 3
  slices_S16x256x128x132_S16x256x128x1_0_0_0_131 : S16x256x128x132.Slices ![0, 0, 0, 131] S16x256x128x1
  slices_S16x256x128x132_S16x256x128x4_0_0_0_127 : S16x256x128x132.Slices ![0, 0, 0, 127] S16x256x128x4
  concatenates_S16x256x128x132_S16x256x128x4_S16x256x128x136_d3 : Shape.Concatenates [S16x256x128x132, S16x256x128x4] S16x256x128x136 3
  slices_S16x256x5_S16x256x1_0_0_0 : S16x256x5.Slices ![0, 0, 0] S16x256x1
  shapeCasts_S16x256x1_S16x256 : S16x256x1.ShapeCasts S16x256
  bcast_S16x256_S16x256x1x1_0_1 : S16x256.BroadcastsInDim S16x256x1x1 (![0, 1] : Fin 2 → Fin S16x256x1x1.rank)
  slices_S16x256x128x136_S16x256x128x128_0_0_0_0 : S16x256x128x136.Slices ![0, 0, 0, 0] S16x256x128x128
  bcast_S16x256x1x1_S16x256x128x128_0_1_2_3 : S16x256x1x1.BroadcastsInDim S16x256x128x128 (![0, 1, 2, 3] : Fin 4 → Fin S16x256x128x128.rank)
  slices_S16x256x5_S16x256x1_0_0_1 : S16x256x5.Slices ![0, 0, 1] S16x256x1
  slices_S16x256x128x136_S16x256x128x128_0_0_0_2 : S16x256x128x136.Slices ![0, 0, 0, 2] S16x256x128x128
  slices_S16x256x5_S16x256x1_0_0_2 : S16x256x5.Slices ![0, 0, 2] S16x256x1
  slices_S16x256x128x136_S16x256x128x128_0_0_0_4 : S16x256x128x136.Slices ![0, 0, 0, 4] S16x256x128x128
  slices_S16x256x5_S16x256x1_0_0_3 : S16x256x5.Slices ![0, 0, 3] S16x256x1
  slices_S16x256x128x136_S16x256x128x128_0_0_0_6 : S16x256x128x136.Slices ![0, 0, 0, 6] S16x256x128x128
  slices_S16x256x5_S16x256x1_0_0_4 : S16x256x5.Slices ![0, 0, 4] S16x256x1
  slices_S16x256x128x136_S16x256x128x128_0_0_0_8 : S16x256x128x136.Slices ![0, 0, 0, 8] S16x256x128x128
  dot_S16x256_S10x256_S16x10_1_1_0_0_n_n_wf : DotDims.WF S16x256 S10x256 S16x10 [1] [1] [0] [0] [] []
  gather_S16x2x5_S256x1_S16x256x5_02_1_n_n_1_1_1615_wf : GatherDims.WF S16x2x5 S256x1 S16x256x5 [0, 2] [1] [] [1] [] 1 ![16, 1, 5]

variable [Facts₀]

def dot_S16x256_S10x256_S16x10_1_1_0_0_n_n : DotDims S16x256 S10x256 S16x10 where
  lhsContracting := [1]
  rhsContracting := [1]
  lhsNonContracting := [0]
  rhsNonContracting := [0]
  lhsBatch := []
  rhsBatch := []
  wf := dot_S16x256_S10x256_S16x10_1_1_0_0_n_n_wf
def gather_S16x2x5_S256x1_S16x256x5_02_1_n_n_1_1_1615 : GatherDims S16x2x5 S256x1 S16x256x5 where
  offsetDims := [0, 2]
  collapsedSliceDims := [1]
  operandBatchingDims := []
  startIndicesBatchingDims := []
  startIndexMap := [1]
  indexVectorDim := 1
  sliceSizes := ![16, 1, 5]
  wf := gather_S16x2x5_S256x1_S16x256x5_02_1_n_n_1_1_1615_wf

class Facts : Prop extends Facts₀ where

variable [Facts]
-- ==== Proof.KRun.lean ====
/-
  The kernel program's run with its result named: every weakly fair execution of @main ends with the
  result buffer at the contents the second region's write-backs leave (the last boundary of the fold of
  buffer contents through @main's four segments) and the two argument arrays as launched. This is the
  library's several-regions launch theorem over the program's segments, the final thread state read
  against the final memory at three buffers: the result and the two arguments.
-/
import proofs.«179027_j52905407152335_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_result : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c)⟩)

end Cert.KernelIdeal.KRun

end
-- ==== Proof.Spec.lean ====
/-
  The mathematics both programs compute, written once over coordinates.

  From x : [16,256,128,128] and W : [10,256]:
    avg[n,c]      = (Σ_h Σ_w x[n,c,h,w]) · 2⁻¹⁴                       (the mean over the 128×128 plane)
    gate          = a chain of whole-array operations of avg and W that both programs spell the same way
                    (a contraction with W, a regrouping to [16,2,5], the logistic function)
    filt[n,c,j]   = gate[n, c mod 2, j]                                (channel c uses group c mod 2)
    xp            = x with four reflected columns on either side of the last axis: [16,256,128,136]
    out[n,c,h,w]  = ((((filt[n,c,0]·xp[n,c,h,w] + filt[n,c,1]·xp[n,c,h,w+2]) + filt[n,c,2]·xp[n,c,h,w+4])
                        + filt[n,c,3]·xp[n,c,h,w+6]) + filt[n,c,4]·xp[n,c,h,w+8])
  Only the three index-level pieces (avg, filt, out) are stated here; gate and xp stay whole-array
  functions, the same on both sides.
-/
import Idealize.ShloMosaic.PureOps.Ideal
import Idealize.ShloMosaic.Lib.ValueIdx

noncomputable section

namespace Cert.Spec

open Idealize.ShloMosaic Idealize.ShloMosaic.ValueIdx
open scoped BigOperators

abbrev X4 : Shape := ⟨4, ![16, 256, 128, 128]⟩
abbrev P4 : Shape := ⟨4, ![16, 256, 128, 136]⟩
abbrev A2 : Shape := ⟨2, ![16, 256]⟩
abbrev G3 : Shape := ⟨3, ![16, 2, 5]⟩
abbrev F3 : Shape := ⟨3, ![16, 256, 5]⟩

/-- The mean of the plane (n, c): the total of its 128·128 entries times 1/16384. -/
def avgAt (x : X4.Idx → EReal) (n : Fin 16) (c : Fin 256) : EReal :=
  (∑ h : Fin 128, ∑ w : Fin 128, x (ix4 n c h w)) * (((1 : ℝ) / 16384 : ℝ) : EReal)

/-- The means as an array [16,256]. -/
def avgArr (x : X4.Idx → EReal) : A2.Idx → EReal := fun i => avgAt x (i 0) (i 1)

theorem avgArr_apply (x : X4.Idx → EReal) (n : Fin 16) (c : Fin 256) : avgArr x (ix2 n c) = avgAt x n c := rfl

/-- Channel c of the filter bank reads group c mod 2. -/
def filtAt (f : G3.Idx → EReal) (n : Fin 16) (c : Fin 256) (j : Fin 5) : EReal :=
  f (ix3 n (⟨c.val % 2, Nat.mod_lt _ (by decide)⟩ : Fin 2) j)

/-- The filter bank as an array [16,256,5]. -/
def filtArr (f : G3.Idx → EReal) : F3.Idx → EReal := fun i => filtAt f (i 0) (i 1) (i 2)

theorem filtArr_apply (f : G3.Idx → EReal) (n : Fin 16) (c : Fin 256) (j : Fin 5) :
    filtArr f (ix3 n c j) = filtAt f n c j := rfl

/-- Column w + o of the padded row, for an offset o ≤ 8. -/
abbrev col (w : Fin 128) (o : Nat) (ho : o ≤ 8) : Fin 136 := ⟨w.val + o, by have := w.isLt; omega⟩

/-- The five-tap dilated filter along the last axis, the taps added left to right. -/
def convAt (F : F3.Idx → EReal) (P : P4.Idx → EReal) (n : Fin 16) (c : Fin 256) (h : Fin 128) (w : Fin 128) : EReal :=
  ((((F (ix3 n c (0 : Fin 5)) * P (ix4 n c h (col w 0 (by decide)))
      + F (ix3 n c (1 : Fin 5)) * P (ix4 n c h (col w 2 (by decide))))
      + F (ix3 n c (2 : Fin 5)) * P (ix4 n c h (col w 4 (by decide))))
      + F (ix3 n c (3 : Fin 5)) * P (ix4 n c h (col w 6 (by decide))))
      + F (ix3 n c (4 : Fin 5)) * P (ix4 n c h (col w 8 (by decide))))

/-- The filtered array [16,256,128,128]. -/
def convArr (F : F3.Idx → EReal) (P : P4.Idx → EReal) : X4.Idx → EReal :=
  fun i => convAt F P (i 0) (i 1) (i 2) (i 3)

theorem convArr_apply (F : F3.Idx → EReal) (P : P4.Idx → EReal) (n : Fin 16) (c : Fin 256) (h : Fin 128) (w : Fin 128) :
    convArr F P (ix4 n c h w) = convAt F P n c h w := rfl

end Cert.Spec

end
-- ==== Proof.ConvBody.lean ====
/-
  Region 1's body at an index. On a block (0, c, h, w) of the output window the body leaves

    ((((f[0,c,0]·p[0,c,h,w] + f[0,c,1]·p[0,c,h,w+2]) + f[0,c,2]·p[0,c,h,w+4]) + f[0,c,3]·p[0,c,h,w+6]) + f[0,c,4]·p[0,c,h,w+8])

  where p is the [1,64,128,136] block of the padded array and f the [1,64,5] block of the filter bank:
  each tap is a column of f regrouped [1,64,1] → [64] → [64,1,1] and spread over the 128×128 plane, times
  the 128 lanes of p starting at lane 2j.
-/
import proofs.«179027_j52905407152335_2_alg».proof.Proof.Gen.KernelIdeal.Frame
import proofs.«179027_j52905407152335_2_alg».proof.Proof.Spec
import Idealize.ShloMosaic.Lib.Pipeline.Value
import Idealize.ShloMosaic.Lib.ValueIdx
import Idealize.ShloMosaic.Lib.ValueLayout

noncomputable section

namespace Cert.KernelIdeal.ConvBody

open Idealize.ShloMosaic Idealize.ShloMosaic.ValueIdx Cert.KernelIdeal Cert.KernelIdeal.Gen

variable {α : Type}

/-- The 128 lanes from lane o of a [1,64,128,136] block, read at (0, c, h, w): the block at lane w + o. -/
theorem ld_lanes (x0 : S1x64x128x136.Idx → α) (o : Nat) (ho : o ≤ 8)
    (inb : ∀ a, (![0, 0, 0, o] : Fin 4 → Nat) a + S1x64x128x128.size a ≤ S1x64x128x136.size a)
    (c : Fin 64) (h w : Fin 128) :
    View.ld (Val := fun _ => α) (e' := .f32) x0 (Rect.unit (s := S1x64x128x136) ![0, 0, 0, o] S1x64x128x128.size inb) (ix4 (0 : Fin 1) c h w)
      = x0 (ix4 (0 : Fin 1) c h (Cert.Spec.col w o ho)) := by
  show x0 _ = x0 _
  refine congrArg x0 (funext fun a => Fin.ext ?_)
  match a with
  | ⟨0, _⟩ => show 0 + 1 * 0 = 0; rfl
  | ⟨1, _⟩ => show 0 + 1 * c.val = c.val; omega
  | ⟨2, _⟩ => show 0 + 1 * h.val = h.val; omega
  | ⟨3, _⟩ => show o + 1 * w.val = w.val + o; omega

/-- Column j of a [1,64,5] block, read at (0, c, 0): the block at (0, c, j). -/
theorem ld_tap (x1 : S1x64x5.Idx → α) (j : Fin 5)
    (inb : ∀ a, (![0, 0, j.val] : Fin 3 → Nat) a + S1x64x1.size a ≤ S1x64x5.size a) (c : Fin 64) :
    View.ld (Val := fun _ => α) (e' := .f32) x1 (Rect.unit (s := S1x64x5) ![0, 0, j.val] S1x64x1.size inb) (ix3 (0 : Fin 1) c (0 : Fin 1))
      = x1 (ix3 (0 : Fin 1) c j) := by
  show x1 _ = x1 _
  refine congrArg x1 (funext fun a => Fin.ext ?_)
  match a with
  | ⟨0, _⟩ => show 0 + 1 * 0 = 0; rfl
  | ⟨1, _⟩ => show 0 + 1 * c.val = c.val; omega
  | ⟨2, _⟩ => show j.val + 1 * 0 = j.val; omega

/-- A [1,64,1] column regrouped to [64], then to [64,1,1], then spread over [64,128,128], read at (c, h, w):
    the column's entry (0, c, 0). -/
theorem spread_apply (v : S1x64x1.Idx → α) (h1 : S1x64x1.ShapeCasts S64) (h2 : S64.ShapeCasts S64x1x1)
    (h3 : S64x1x1.Broadcasts S64x128x128) (c : Fin 64) (h w : Fin 128) :
    broadcastTo S64x128x128 (shapeCast S64x1x1 (shapeCast S64 v h1) h2) h3 (ix3 c h w) = v (ix3 (0 : Fin 1) c (0 : Fin 1)) := by
  refine (broadcastTo_apply _ h3 (ix3 c h w) (ix3 c (0 : Fin 1) (0 : Fin 1)) (fun a => ?_)).trans ?_
  · match a with
    | ⟨0, _⟩ => rfl
    | ⟨1, _⟩ => rfl
    | ⟨2, _⟩ => rfl
  refine (shapeCast_apply _ h2 (ix3 c (0 : Fin 1) (0 : Fin 1)) (ix1 c) ?_).trans ?_
  · rw [Shape.rowMajor_val_three, Shape.rowMajor_val_one]
    show c.val = (c.val * 1 + 0) * 1 + 0
    omega
  refine shapeCast_apply _ h1 (ix1 c) (ix3 (0 : Fin 1) c (0 : Fin 1)) ?_
  rw [Shape.rowMajor_val_three, Shape.rowMajor_val_one]
  show (0 * 64 + c.val) * 1 + 0 = c.val
  omega

theorem hz4 : (![0, 0, 0, 0] : Fin 4 → Nat) = fun _ => 0 := funext fun a => by fin_cases a <;> rfl

/-- The body's result at (0, c, h, w) of the output block. -/
theorem out_at (x0 : Vec Ideal S1x64x128x136 .f32) (x1 : Vec Ideal S1x64x5 .f32) (c : Fin 64) (h w : Fin 128) :
    (out1_2 (F := Ideal) x0 x1 : S1x64x128x128.Idx → EReal) (ix4 (0 : Fin 1) c h w)
      = ((((x1 (ix3 (0 : Fin 1) c (0 : Fin 5)) * x0 (ix4 (0 : Fin 1) c h (Cert.Spec.col w 0 (by decide)))
          + x1 (ix3 (0 : Fin 1) c (1 : Fin 5)) * x0 (ix4 (0 : Fin 1) c h (Cert.Spec.col w 2 (by decide))))
          + x1 (ix3 (0 : Fin 1) c (2 : Fin 5)) * x0 (ix4 (0 : Fin 1) c h (Cert.Spec.col w 4 (by decide))))
          + x1 (ix3 (0 : Fin 1) c (3 : Fin 5)) * x0 (ix4 (0 : Fin 1) c h (Cert.Spec.col w 6 (by decide))))
          + x1 (ix3 (0 : Fin 1) c (4 : Fin 5)) * x0 (ix4 (0 : Fin 1) c h (Cert.Spec.col w 8 (by decide)))) := by
  unfold out1_2
  rw [View.canon_unit_zero hz4]
  unfold k1_pay1 k1_pay2 k1_pay3
  dsimp only
  rw [shapeCast_abc_1abc_apply]
  simp only [addf_apply, mulf_apply, spread_apply, shapeCast_1abc_abc_apply]
  have e0 : View.ld x1 r1_0 (ix3 (0 : Fin 1) c (0 : Fin 1)) = x1 (ix3 (0 : Fin 1) c (0 : Fin 5)) := ld_tap x1 (0 : Fin 5) _ c
  have e1 : View.ld x1 r1_2 (ix3 (0 : Fin 1) c (0 : Fin 1)) = x1 (ix3 (0 : Fin 1) c (1 : Fin 5)) := ld_tap x1 (1 : Fin 5) _ c
  have e2 : View.ld x1 r1_4 (ix3 (0 : Fin 1) c (0 : Fin 1)) = x1 (ix3 (0 : Fin 1) c (2 : Fin 5)) := ld_tap x1 (2 : Fin 5) _ c
  have e3 : View.ld x1 r1_6 (ix3 (0 : Fin 1) c (0 : Fin 1)) = x1 (ix3 (0 : Fin 1) c (3 : Fin 5)) := ld_tap x1 (3 : Fin 5) _ c
  have e4 : View.ld x1 r1_8 (ix3 (0 : Fin 1) c (0 : Fin 1)) = x1 (ix3 (0 : Fin 1) c (4 : Fin 5)) := ld_tap x1 (4 : Fin 5) _ c
  have p0 : View.ld x0 r1_1 (ix4 (0 : Fin 1) c h w) = x0 (ix4 (0 : Fin 1) c h (Cert.Spec.col w 0 (by decide))) := ld_lanes x0 0 (by decide) _ c h w
  have p1 : View.ld x0 r1_3 (ix4 (0 : Fin 1) c h w) = x0 (ix4 (0 : Fin 1) c h (Cert.Spec.col w 2 (by decide))) := ld_lanes x0 2 (by decide) _ c h w
  have p2 : View.ld x0 r1_5 (ix4 (0 : Fin 1) c h w) = x0 (ix4 (0 : Fin 1) c h (Cert.Spec.col w 4 (by decide))) := ld_lanes x0 4 (by decide) _ c h w
  have p3 : View.ld x0 r1_7 (ix4 (0 : Fin 1) c h w) = x0 (ix4 (0 : Fin 1) c h (Cert.Spec.col w 6 (by decide))) := ld_lanes x0 6 (by decide) _ c h w
  have p4 : View.ld x0 r1_9 (ix4 (0 : Fin 1) c h w) = x0 (ix4 (0 : Fin 1) c h (Cert.Spec.col w 8 (by decide))) := ld_lanes x0 8 (by decide) _ c h w
  rw [e0, e1, e2, e3, e4, p0, p1, p2, p3, p4]

end Cert.KernelIdeal.ConvBody

end
-- ==== Proof.ConvRegion.lean ====
/-
  Region 1 from blocks to the array. Grid point t = (n, q) reads the [1,64,128,136] block (n, q) of the
  padded array and the [1,64,5] block (n, q) of the filter bank, and writes the [1,64,128,128] block
  (n, q) of the result: entry (n, 64q + c', h, w) of the result is the five-tap filter of row
  (n, 64q + c', h) of the padded array with the taps of channel 64q + c'. The 16 × 4 blocks tile the
  result, so the result array is Cert.Spec.convArr of the two arrays the region found.
-/
import proofs.«179027_j52905407152335_2_alg».proof.Proof.ConvBody

set_option maxRecDepth 16384

noncomputable section

namespace Cert.KernelIdeal.ConvRegion

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's result at any index y of the output block, by y's coordinates. -/
theorem out_y (x0 : Vec Ideal S1x64x128x136 .f32) (x1 : Vec Ideal S1x64x5 .f32) (y : S1x64x128x128.Idx) :
    (out1_2 (F := Ideal) x0 x1 : S1x64x128x128.Idx → EReal) y
      = ((((x1 (ix3 (0 : Fin 1) (y 1) (0 : Fin 5)) * x0 (ix4 (0 : Fin 1) (y 1) (y 2) (Cert.Spec.col (y 3) 0 (by decide)))
          + x1 (ix3 (0 : Fin 1) (y 1) (1 : Fin 5)) * x0 (ix4 (0 : Fin 1) (y 1) (y 2) (Cert.Spec.col (y 3) 2 (by decide))))
          + x1 (ix3 (0 : Fin 1) (y 1) (2 : Fin 5)) * x0 (ix4 (0 : Fin 1) (y 1) (y 2) (Cert.Spec.col (y 3) 4 (by decide))))
          + x1 (ix3 (0 : Fin 1) (y 1) (3 : Fin 5)) * x0 (ix4 (0 : Fin 1) (y 1) (y 2) (Cert.Spec.col (y 3) 6 (by decide))))
          + x1 (ix3 (0 : Fin 1) (y 1) (4 : Fin 5)) * x0 (ix4 (0 : Fin 1) (y 1) (y 2) (Cert.Spec.col (y 3) 8 (by decide)))) := by
  have hy : y = ix4 (0 : Fin 1) (y 1) (y 2) (y 3) := by
    funext a
    match a with
    | ⟨0, _⟩ => exact Fin.ext (by have h : (y 0).val < 1 := (y 0).isLt; show (y 0).val = 0; omega)
    | ⟨1, _⟩ => rfl
    | ⟨2, _⟩ => rfl
    | ⟨3, _⟩ => rfl
  rw [hy]
  exact ConvBody.out_at x0 x1 (y 1) (y 2) (y 3)

/-- The printed index maps over the grid: the three windows move together along the first two axes and
    stay at block 0 on the others. -/
theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_1.index t (0 : Fin 3) = win1_2.index t (0 : Fin 4) ∧ win1_1.index t (1 : Fin 3) = win1_2.index t (1 : Fin 4)
    ∧ win1_1.index t (2 : Fin 3) = 0
    ∧ win1_2.index t (2 : Fin 4) = 0 ∧ win1_2.index t (3 : Fin 4) = 0
    ∧ win1_2.index t (0 : Fin 4) ≤ 15 ∧ win1_2.index t (1 : Fin 4) ≤ 3 :=
  (by decide +kernel : ∀ t : Fin grid1.N, _)

/-- Every block (n, q) of the result is some point's. -/
theorem idx_onto : ∀ (q0 : Fin 16) (q1 : Fin 4), ∃ t : Fin cfg1.N, win1_2.index t = ![q0.val, q1.val, 0, 0] :=
  (by decide +kernel : ∀ (q0 : Fin 16) (q1 : Fin 4), ∃ t : Fin grid1.N, win1_2.index t = ![q0.val, q1.val, 0, 0])

/-- What point t writes back is block t of the filtered array. -/
theorem flushed_eq (c : Dev nD) (t : Fin cfg1.N) :
    (dat1 (F := Ideal) V c).flushed 2 t
      = ((cfg1.win 2).blk t).view.read (Elt Ideal) (Cert.Spec.convArr (V c main_v11 : S16x256x5.Idx → EReal) (V c main_v12 : S16x256x128x136.Idx → EReal)) := by
  show (cfg1.win 2).cut (grid1.coords t) ((dat1 V c).after 2 t) = _
  rw [after1_2]
  obtain ⟨e0, e1, e2, e3, e4, e5, e6, e7, e8, e9, e10⟩ := idx_facts t
  funext j
  refine (out_y (iblk1 V c 0 t) (iblk1 V c 1 t) j).trans ?_
  show _ = Cert.Spec.convArr (V c main_v11 : S16x256x5.Idx → EReal) (V c main_v12 : S16x256x128x136.Idx → EReal) (((cfg1.win 2).blk t).view.emb j)
  have hj0 : (j 0).val < 1 := (j 0).isLt
  have hj1 : (j 1).val < 64 := (j 1).isLt
  have hj2 : (j 2).val < 128 := (j 2).isLt
  have hj3 : (j 3).val < 128 := (j 3).isLt
  -- the tap k of the filter block at channel (j 1) is the filter bank at the array index under the output's block
  have hf : ∀ k : Fin 5, iblk1 V c 1 t (ix3 (0 : Fin 1) (j 1) k)
      = (V c main_v11 : S16x256x5.Idx → EReal) (ix3 ((((cfg1.win 2).blk t).view.emb j) 0) ((((cfg1.win 2).blk t).view.emb j) 1) k) := fun k => by
    show (V c main_v11 : S16x256x5.Idx → EReal) (((cfg1.win 1).blk t).view.emb (ix3 (0 : Fin 1) (j 1) k)) = _
    refine congrArg _ (funext fun a => Fin.ext ?_)
    match a with
    | ⟨0, _⟩ => show win1_1.index t (0 : Fin 3) * 1 + 1 * 0 = win1_2.index t (0 : Fin 4) * 1 + 1 * (j 0).val; omega
    | ⟨1, _⟩ => show win1_1.index t (1 : Fin 3) * 64 + 1 * (j 1).val = win1_2.index t (1 : Fin 4) * 64 + 1 * (j 1).val; omega
    | ⟨2, _⟩ => show win1_1.index t (2 : Fin 3) * 5 + 1 * k.val = k.val; omega
  -- lane (j 3) + o of the padded block is the padded array at the row under the output's block, lane w + o
  have hp : ∀ (o : Nat) (ho : o ≤ 8), iblk1 V c 0 t (ix4 (0 : Fin 1) (j 1) (j 2) (Cert.Spec.col (j 3) o ho))
      = (V c main_v12 : S16x256x128x136.Idx → EReal) (ix4 ((((cfg1.win 2).blk t).view.emb j) 0) ((((cfg1.win 2).blk t).view.emb j) 1)
          ((((cfg1.win 2).blk t).view.emb j) 2) (Cert.Spec.col ((((cfg1.win 2).blk t).view.emb j) 3) o ho)) := fun o ho => by
    show (V c main_v12 : S16x256x128x136.Idx → EReal) (((cfg1.win 0).blk t).view.emb (ix4 (0 : Fin 1) (j 1) (j 2) (Cert.Spec.col (j 3) o ho))) = _
    refine congrArg _ (funext fun a => Fin.ext ?_)
    match a with
    | ⟨0, _⟩ => show win1_0.index t (0 : Fin 4) * 1 + 1 * 0 = win1_2.index t (0 : Fin 4) * 1 + 1 * (j 0).val; omega
    | ⟨1, _⟩ => show win1_0.index t (1 : Fin 4) * 64 + 1 * (j 1).val = win1_2.index t (1 : Fin 4) * 64 + 1 * (j 1).val; omega
    | ⟨2, _⟩ => show win1_0.index t (2 : Fin 4) * 128 + 1 * (j 2).val = win1_2.index t (2 : Fin 4) * 128 + 1 * (j 2).val; omega
    | ⟨3, _⟩ => show win1_0.index t (3 : Fin 4) * 136 + 1 * ((j 3).val + o) = (win1_2.index t (3 : Fin 4) * 128 + 1 * (j 3).val) + o; omega
  rw [hf 0, hf 1, hf 2, hf 3, hf 4, hp 0 _, hp 2 _, hp 4 _, hp 6 _, hp 8 _]
  rfl

/-- An index of the result array is in point t's block iff each coordinate is in the block's range on its axis. -/
theorem mem_blk (t : Fin cfg1.N) (i : S16x256x128x128.Idx) :
    i ∈ ((cfg1.win 2).blk t).view.set ↔ ∀ a : Fin 4, win1_2.index t a * S1x64x128x128.size a ≤ (i a).val
      ∧ (i a).val < win1_2.index t a * S1x64x128x128.size a + S1x64x128x128.size a := by
  show i ∈ ((View.whole main_v13).slice (win1_2.rect t)).set ↔ _
  rw [View.set_slice_whole, Rect.mem_set_unit]
  exact Iff.rfl

/-- The 16 × 4 blocks tile the result: index (n, c, h, w) lies in the block of the point with block
    indices (n, c / 64). So the result array is the filtered array. -/
theorem conv_final (c : Dev nD) :
    ((dat1 (F := Ideal) V c).arrAt 2 cfg1.N : S16x256x128x128.Idx → EReal)
      = Cert.Spec.convArr (V c main_v11 : S16x256x5.Idx → EReal) (V c main_v12 : S16x256x128x136.Idx → EReal) :=
  (dat1 (F := Ideal) V c).arrAt_eq_of_cover 2 _ (fun t _ => flushed_eq V c t) fun i => by
    have hi0 : (i 0).val < 16 := (i 0).isLt
    have hi1 : (i 1).val < 256 := (i 1).isLt
    have hi2 : (i 2).val < 128 := (i 2).isLt
    have hi3 : (i 3).val < 128 := (i 3).isLt
    obtain ⟨t, ht⟩ := idx_onto ⟨(i 0).val, hi0⟩ ⟨(i 1).val / 64, by omega⟩
    have q0 : win1_2.index t (0 : Fin 4) = (i 0).val := congrFun ht 0
    have q1 : win1_2.index t (1 : Fin 4) = (i 1).val / 64 := congrFun ht 1
    have q2 : win1_2.index t (2 : Fin 4) = 0 := congrFun ht 2
    have q3 : win1_2.index t (3 : Fin 4) = 0 := congrFun ht 3
    refine ⟨t, flush1_2 t, ?_⟩
    rw [mem_blk]
    intro a
    match a with
    | ⟨0, _⟩ => show win1_2.index t (0 : Fin 4) * 1 ≤ (i 0).val ∧ (i 0).val < win1_2.index t (0 : Fin 4) * 1 + 1; omega
    | ⟨1, _⟩ => show win1_2.index t (1 : Fin 4) * 64 ≤ (i 1).val ∧ (i 1).val < win1_2.index t (1 : Fin 4) * 64 + 64; omega
    | ⟨2, _⟩ => show win1_2.index t (2 : Fin 4) * 128 ≤ (i 2).val ∧ (i 2).val < win1_2.index t (2 : Fin 4) * 128 + 128; omega
    | ⟨3, _⟩ => show win1_2.index t (3 : Fin 4) * 128 ≤ (i 3).val ∧ (i 3).val < win1_2.index t (3 : Fin 4) * 128 + 128; omega

end Cert.KernelIdeal.ConvRegion

end
-- ==== Proof.KGlueDefs.lean ====
/-
  The host operations between the kernel program's two regions, as whole-array functions.

  gateK  : from the means a : [16,256] and the weights W : [10,256]: the contraction over the 256 channels,
           regrouped to [16,2,5], then the logistic function 1 / (1 + exp (−·)), spelt with the program's
           own operations in the program's operand order.
  tileK  : the regrouping of [16,2,5] into the filter bank [16,256,5]: a cast to [1,16,1,2,1,5], a broadcast
           of the size-1 axis 2 to 128, a cast to [16,256,5].
  padK   : four reflected columns on either side of the last axis: [16,256,128,128] → [16,256,128,136],
           through the intermediate [16,256,128,132] array padL (the left reflection joined to x).
-/
import proofs.«179027_j52905407152335_2_alg».proof.Proof.Gen.KernelIdeal
import Idealize.ShloMosaic.PureOps.Ideal

noncomputable section

namespace Cert.KernelIdeal.Glue

open Idealize.ShloMosaic
open Cert.KernelIdeal Cert.KernelIdeal.Facts₀

/-- The contraction with W, regrouped to [16,2,5], then 1 / (1 + exp (−·)). -/
def gateK (a : FVec Ideal S16x256 .f32) (W : FVec Ideal S10x256 .f32) : FVec Ideal S16x2x5 .f32 :=
  Host.divf (F := Ideal) (broadcastInDim S16x2x5 ![] bcast_S_S16x2x5 (constant (F := Ideal) S_ .f32 0x3F800000#32))
    (addf (broadcastInDim S16x2x5 ![] bcast_S_S16x2x5 (constant (F := Ideal) S_ .f32 0x3F800000#32))
      (Host.exp (F := Ideal)
        (Host.negf (F := Ideal)
          (shapeCast S16x2x5
            (Host.dotGeneral (F := Ideal) dot_S16x256_S10x256_S16x10_1_1_0_0_n_n none a W)
            shapeCasts_S16x10_S16x2x5))))

/-- [16,2,5] regrouped into [16,256,5] through [1,16,1,2,1,5] and [1,16,128,2,1,5]. -/
def tileK (f : FVec Ideal S16x2x5 .f32) : FVec Ideal S16x256x5 .f32 :=
  shapeCast S16x256x5
    (broadcastInDim S1x16x128x2x1x5 ![0, 1, 2, 3, 4, 5] bcast_S1x16x1x2x1x5_S1x16x128x2x1x5_0_1_2_3_4_5
      (shapeCast S1x16x1x2x1x5 f shapeCasts_S16x2x5_S1x16x1x2x1x5))
    shapeCasts_S1x16x128x2x1x5_S16x256x5

/-- Columns 1..4 reversed, joined on the left of x: [16,256,128,132]. -/
def padL (x : FVec Ideal S16x256x128x128 .f32) : FVec Ideal S16x256x128x132 .f32 :=
  concatenate S16x256x128x132 3
    [⟨S16x256x128x4, Host.reverse [3] (extractStridedSlice S16x256x128x4 ![0, 0, 0, 1] x slices_S16x256x128x128_S16x256x128x4_0_0_0_1)⟩,
     ⟨S16x256x128x128, x⟩]
    concatenates_S16x256x128x4_S16x256x128x128_S16x256x128x132_d3

/-- Columns 127..130 of padL reversed, joined on its right: [16,256,128,136]. -/
def padK (x : FVec Ideal S16x256x128x128 .f32) : FVec Ideal S16x256x128x136 .f32 :=
  concatenate S16x256x128x136 3
    [⟨S16x256x128x132, padL x⟩,
     ⟨S16x256x128x4, Host.reverse [3] (extractStridedSlice S16x256x128x4 ![0, 0, 0, 127] (padL x) slices_S16x256x128x132_S16x256x128x4_0_0_0_127)⟩]
    concatenates_S16x256x128x132_S16x256x128x4_S16x256x128x136_d3

end Cert.KernelIdeal.Glue

end
-- ==== Proof.KGlueEntry.lean ====
/-
  What region 1 finds in its two input arrays: the filter bank is tileK (gateK avg W), avg region 0's output
  and W the launch's second argument; the padded array is padK x, x the launch's first argument. Each is the
  fold of the host operations between the two regions read at one buffer.
-/
import proofs.«179027_j52905407152335_2_alg».proof.Proof.Gen.KernelIdeal.Frame
import proofs.«179027_j52905407152335_2_alg».proof.Proof.KGlueDefs
import Idealize.ShloMosaic.Lib.StableHlo.Run

set_option maxRecDepth 16384

noncomputable section

namespace Cert.KernelIdeal.Glue

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg) (c : Dev nD)

/-- The launch's second argument is untouched by region 0. -/
theorem W1_arg1 : W1 m ρ c (Proc.devRef .tc main_arg1) = m ((c : Thread nD τ).loc main_arg1) :=
  (W1_of_ne m ρ c main_arg1 (by decide)).trans rfl

/-- The launch's first argument is an input array of region 0: it leaves it as entered. -/
theorem W1_arg0 : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl

theorem filt_entry :
    (V3 m ρ c main_v11 : S16x256x5.Idx → EReal)
      = tileK (gateK (V1 m ρ c main_v0) (m ((c : Thread nD τ).loc main_arg1))) := by
  show StableHlo.after hostOps1_1 (StableHlo.after hostOps1 (W1 m ρ c)) (Proc.devRef .tc main_v11) = _
  after_results
  rw [W1_arg1]
  rfl

theorem pad_entry :
    (V3 m ρ c main_v12 : S16x256x128x136.Idx → EReal) = padK (m ((c : Thread nD τ).loc main_arg0)) := by
  show StableHlo.after hostOps1_1 (StableHlo.after hostOps1 (W1 m ρ c)) (Proc.devRef .tc main_v12) = _
  after_results
  rw [W1_arg0]
  rfl

end Cert.KernelIdeal.Glue

end
-- ==== Proof.KGlueTile.lean ====
/-
  The regrouping [16,2,5] → [16,256,5] of the kernel program reads, at (n, c, j), the operand at (n, c mod 2, j).

  Row-major positions: (n, c, j) of [16,256,5] sits at (n·256 + c)·5 + j; (0, n, r, g, 0, j) of [1,16,128,2,1,5]
  at ((n·128 + r)·2 + g)·5 + j. The two agree for r = c / 2, g = c mod 2. The broadcast along the size-1 axis 2
  reads (0, n, 0, g, 0, j) of [1,16,1,2,1,5], whose position (n·2 + g)·5 + j is that of (n, g, j) in [16,2,5].
-/
import proofs.«179027_j52905407152335_2_alg».proof.Proof.KGlueDefs
import proofs.«179027_j52905407152335_2_alg».proof.Proof.Spec
import Idealize.ShloMosaic.Lib.ValueIdx
import Idealize.ShloMosaic.Lib.ValueIdxRank6
import Idealize.ShloMosaic.Lib.Pipeline.Value

noncomputable section

namespace Cert.KernelIdeal.Glue

open Idealize.ShloMosaic Idealize.ShloMosaic.ValueIdx
open Cert.KernelIdeal Cert.KernelIdeal.Facts₀

/-- A [1,16,128,2,1,5] array cast to [16,256,5] reads, at (n, c, j), the operand at (0, n, c / 2, c mod 2, 0, j). -/
theorem cast_out_apply {α : Type} (x : (⟨6, ![1, 16, 128, 2, 1, 5]⟩ : Shape).Idx → α)
    (h : (⟨6, ![1, 16, 128, 2, 1, 5]⟩ : Shape).ShapeCasts ⟨3, ![16, 256, 5]⟩) (n : Fin 16) (c : Fin 256) (j : Fin 5) :
    shapeCast ⟨3, ![16, 256, 5]⟩ x h (ix3 n c j)
      = x (ix6 (0 : Fin 1) n (⟨c.val / 2, by have := c.isLt; omega⟩ : Fin 128)
            (⟨c.val % 2, Nat.mod_lt _ (by decide)⟩ : Fin 2) (0 : Fin 1) j) :=
  shapeCast_apply x h _ _ (by
    rw [Shape.rowMajor_val_six, Shape.rowMajor_val_three]
    show ((((0 * 16 + n.val) * 128 + c.val / 2) * 2 + c.val % 2) * 1 + 0) * 5 + j.val = (n.val * 256 + c.val) * 5 + j.val
    omega)

/-- A [1,16,1,2,1,5] array broadcast along its axis 2 to [1,16,128,2,1,5] reads, at (u, n, r, g, v, j), the operand at
    (0, n, 0, g, 0, j). -/
theorem bcast_mid_apply {α : Type} (x : (⟨6, ![1, 16, 1, 2, 1, 5]⟩ : Shape).Idx → α)
    (h : (⟨6, ![1, 16, 1, 2, 1, 5]⟩ : Shape).BroadcastsInDim ⟨6, ![1, 16, 128, 2, 1, 5]⟩ ![0, 1, 2, 3, 4, 5])
    (u : Fin 1) (n : Fin 16) (r : Fin 128) (g : Fin 2) (v : Fin 1) (j : Fin 5) :
    broadcastInDim ⟨6, ![1, 16, 128, 2, 1, 5]⟩ ![0, 1, 2, 3, 4, 5] h x (ix6 u n r g v j)
      = x (ix6 (0 : Fin 1) n (0 : Fin 1) g (0 : Fin 1) j) :=
  broadcastInDim_apply _ h x _ _ fun a =>
    match a with
    | ⟨0, _⟩ => rfl | ⟨1, _⟩ => rfl | ⟨2, _⟩ => rfl | ⟨3, _⟩ => rfl | ⟨4, _⟩ => rfl | ⟨5, _⟩ => rfl

/-- A [16,2,5] array cast to [1,16,1,2,1,5] reads, at (0, n, 0, g, 0, j), the operand at (n, g, j). -/
theorem cast_in_apply {α : Type} (x : (⟨3, ![16, 2, 5]⟩ : Shape).Idx → α)
    (h : (⟨3, ![16, 2, 5]⟩ : Shape).ShapeCasts ⟨6, ![1, 16, 1, 2, 1, 5]⟩) (n : Fin 16) (g : Fin 2) (j : Fin 5) :
    shapeCast ⟨6, ![1, 16, 1, 2, 1, 5]⟩ x h (ix6 (0 : Fin 1) n (0 : Fin 1) g (0 : Fin 1) j) = x (ix3 n g j) :=
  shapeCast_apply x h _ _ (by
    rw [Shape.rowMajor_val_six, Shape.rowMajor_val_three]
    show (n.val * 2 + g.val) * 5 + j.val = ((((0 * 16 + n.val) * 1 + 0) * 2 + g.val) * 1 + 0) * 5 + j.val
    omega)

/-- The kernel program's regrouping is the filter bank of the specification: channel c reads group c mod 2. -/
theorem tileK_eq (f : FVec Ideal S16x2x5 .f32) : tileK f = Cert.Spec.filtArr f := by
  funext i
  obtain ⟨n, c, j, rfl⟩ : ∃ (n : Fin 16) (c : Fin 256) (j : Fin 5), i = ix3 n c j := ⟨i 0, i 1, i 2, eq_ix3 i⟩
  rw [Cert.Spec.filtArr_apply]
  unfold Cert.Spec.filtAt tileK
  exact (cast_out_apply _ _ n c j).trans ((bcast_mid_apply _ _ _ n _ _ _ j).trans (cast_in_apply f _ n _ j))

end Cert.KernelIdeal.Glue

end
-- ==== Proof.AvgPieces.lean ====
import proofs.«179027_j52905407152335_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AvgPieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Away from the first row-tile of a channel block, the resident block `acc` is replaced by the
    update of `acc` with the input block `x`. -/
theorem out_B (c : Dev nD) (i : grid0.Coords) (a2 : Memref sig .tc .vmem S16x128x16x128 .f32) (h2 : a2.IsWhole)
    (a3 : Memref sig .tc .vmem S16x128 .f32) (h3 : a3.IsWhole) (hc : ¬cond0_0 i)
    (x : Vec F S16x128x16x128 .f32) (acc : Vec F S16x128 .f32) :
    out0_B_1 c i a2 h2 a3 h3 hc x acc = k0_pay2 x acc := by
  unfold out0_B_1
  rw [View.read_writes_eq_canon _ _ _ (cover0_B_1 c i a2 h2 a3 h3 hc x acc)]
  unfold kernelRun0_B
  dsimp only
  rw [View.canon_unit_zero hz2]
  simp only [View.readAt_eq_ld, h2.read_unread, h3.read_unread, View.ld_unit_zero (S := S16x128x16x128) hz4,
    View.ld_unit_zero (S := S16x128) hz2]

/-- At the first row-tile of a channel block, the resident block is first set to the zero block,
    and then updated with the input block `x`. -/
theorem out_A (c : Dev nD) (i : grid0.Coords) (a2 : Memref sig .tc .vmem S16x128x16x128 .f32) (h2 : a2.IsWhole)
    (a3 : Memref sig .tc .vmem S16x128 .f32) (h3 : a3.IsWhole) (hc : cond0_0 i)
    (x : Vec F S16x128x16x128 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S16x128) hz2, View.readCov_unit_zero (S := S16x128) _ hz2]
  simp only [View.readAt_eq_ld, h2.read_unread, View.ld_unit_zero (S := S16x128x16x128) hz4]

end Cert.KernelIdeal.AvgPieces

end
-- ==== Proof.AvgPayload.lean ====
/-
  The arithmetic of one grid step of the mean kernel, read at an entry of the resident [16,128] block over the
  extended reals: the block is updated by the total of the step's 16×128 window of the plane (p, q), scaled by the
  constant 2⁻¹⁴; the block a channel block starts from is zero.
-/
import proofs.«179027_j52905407152335_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.AvgPayload

open Cert.KernelIdeal Cert.KernelIdeal.Gen

/-- The scale constant is the real 1/16384 = 2⁻¹⁴. -/
theorem scale_eq : Ideal.ofBits .f32 0x38800000#32 = (((1 : ℝ) / 16384 : ℝ) : EReal) := by
  simp [Ideal.ofBits, Ideal.ieee, -EReal.coe_mul]; norm_num

/-- The block a channel block starts from is zero everywhere. -/
theorem zero_apply (p : Fin 16) (q : Fin 128) : k0_pay1 (F := Ideal) (ix2 p q) = 0 := by
  unfold k0_pay1
  exact Ideal.ofBits_zero_f32

/-- The sum over the last axis of a [16,128,16,128] block, at (p, q, h). -/
theorem lane_sum (x : FVec Ideal S16x128x16x128 .f32) (hφ : FKind.Formats .f32)
    (hacc : (0x00000000#32 : BitVec 32) = 0x00000000#32) (p : Fin 16) (q : Fin 128) (h : Fin 16) :
    multiReduction .add [3] S16x128x16 x 0x00000000#32 reduces_S16x128x16x128_S16x128x16 hφ hacc (ix3 p q h)
      = ∑ w : Fin 128, x (ix4 p q h w) := by
  refine (Ideal.multiReduction_add_single x 0x00000000#32 reduces_S16x128x16x128_S16x128x16 hφ hacc (ix3 p q h)).trans ?_
  refine Finset.sum_congr rfl fun w _ => congrArg x ?_
  funext a
  match a with
  | ⟨0, _⟩ => rfl
  | ⟨1, _⟩ => rfl
  | ⟨2, _⟩ => rfl
  | ⟨3, _⟩ => rfl

/-- The sum over the last axis of a [16,128,16] block, at (p, q). -/
theorem row_sum (y : FVec Ideal S16x128x16 .f32) (hφ : FKind.Formats .f32)
    (hacc : (0x00000000#32 : BitVec 32) = 0x00000000#32) (p : Fin 16) (q : Fin 128) :
    multiReduction .add [2] S16x128 y 0x00000000#32 reduces_S16x128x16_S16x128 hφ hacc (ix2 p q)
      = ∑ h : Fin 16, y (ix3 p q h) := by
  refine (Ideal.multiReduction_add_single y 0x00000000#32 reduces_S16x128x16_S16x128 hφ hacc (ix2 p q)).trans ?_
  refine Finset.sum_congr rfl fun h _ => congrArg y ?_
  funext a
  match a with
  | ⟨0, _⟩ => rfl
  | ⟨1, _⟩ => rfl
  | ⟨2, _⟩ => rfl

/-- One step of the accumulation at the entry (p, q): the old entry plus the window's total times 2⁻¹⁴. -/
theorem update_apply (x : Vec Ideal S16x128x16x128 .f32) (acc : Vec Ideal S16x128 .f32) (p : Fin 16) (q : Fin 128) :
    k0_pay2 (F := Ideal) x acc (ix2 p q)
      = acc (ix2 p q) + (∑ h : Fin 16, ∑ w : Fin 128, x (ix4 p q h w)) * Ideal.ofBits .f32 0x38800000#32 := by
  unfold k0_pay2
  dsimp only
  refine (addf_apply _ _ (ix2 p q)).trans ?_
  refine congrArg₂ (· + ·) (congrFun (shapeCast_self acc shapeCasts_S16x128_S16x128) (ix2 p q)) ?_
  refine (mulf_apply _ _ (ix2 p q)).trans ?_
  refine congrArg₂ (· * ·) ?_ rfl
  refine (row_sum _ _ _ p q).trans ?_
  exact Finset.sum_congr rfl fun h _ => lane_sum x _ _ p q h

end Cert.KernelIdeal.AvgPayload

end
-- ==== Proof.AvgSum.lean ====
/-
  The arithmetic behind the accumulated mean, free of any program: the coercion of a finite real sum
  into the extended reals, the regrouping of a sum over m·k consecutive naturals into k tiles of m, and
  the law "a sum of scaled tile totals is the scaled grand total" for real-valued entries.
-/
import Idealize.ShloMosaic.PureOps.Ideal
import Mathlib.Algebra.BigOperators.Fin

noncomputable section

namespace Cert.KernelIdeal.AvgSum

open scoped BigOperators

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the first m·k naturals is the sum over k tiles of m consecutive naturals. -/
theorem sum_range_tiles {M : Type*} [AddCommMonoid M] (m : ℕ) (f : ℕ → M) :
    ∀ k : ℕ, ∑ t ∈ Finset.range k, ∑ h ∈ Finset.range m, f (m * t + h) = ∑ j ∈ Finset.range (m * k), f j
  | 0 => by simp
  | k + 1 => by rw [Finset.sum_range_succ, sum_range_tiles m f k, Nat.mul_succ, Finset.sum_range_add]

/-- For real-valued entries X, scaling each of the k tile totals (m rows of n entries) by a real factor and adding
    them up is scaling the total over all m·k rows. -/
theorem sum_tiles_mul (X : ℕ → ℕ → EReal) (hX : ∀ j w, ∃ r : ℝ, X j w = (r : EReal)) (κ : ℝ) (m n k : ℕ) :
    ∑ t ∈ Finset.range k, ((∑ h ∈ Finset.range m, ∑ w ∈ Finset.range n, X (m * t + h) w) * (κ : EReal))
      = (∑ j ∈ Finset.range (m * k), ∑ w ∈ Finset.range n, X j w) * (κ : EReal) := by
  choose R hR using hX
  simp only [hR, ← coe_sum, ← EReal.coe_mul]
  rw [← Finset.sum_mul, sum_range_tiles m (fun j => ∑ w ∈ Finset.range n, R j w) k]

end Cert.KernelIdeal.AvgSum

end
-- ==== Proof.AvgBlocks.lean ====
/-
  The windows of region 0 as coordinates of x. The grid is 2 × 8: point t has channel block t / 8 and row-tile t % 8,
  and reads x[0:16, 128·(t/8) : 128·(t/8)+128, 16·(t%8) : 16·(t%8)+16, 0:128]. To add over row-tiles without carrying
  bounds, x is extended by zero to all quadruples of naturals.
-/
import proofs.«179027_j52905407152335_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.AvgBlocks

open Cert.KernelIdeal Cert.KernelIdeal.Gen

/-- The block indices of the two windows at point t: the input's is (0, t / 8, t % 8, 0), the output's (0, t / 8). -/
theorem idx_facts : ∀ t : Fin cfg0.N, win0_0.index t (0 : Fin 4) = 0 ∧ win0_0.index t (1 : Fin 4) = t.val / 8
    ∧ win0_0.index t (2 : Fin 4) = t.val % 8 ∧ win0_0.index t (3 : Fin 4) = 0
    ∧ win0_1.index t (0 : Fin 2) = 0 ∧ win0_1.index t (1 : Fin 2) = t.val / 8 :=
  (by decide +kernel : ∀ t : Fin grid0.N, _)

/-- x extended by zero to all quadruples of naturals. -/
def ext (x : S16x256x128x128.Idx → EReal) (a b h w : ℕ) : EReal :=
  if hb : a < 16 ∧ b < 256 ∧ h < 128 ∧ w < 128 then x (ix4 ⟨a, hb.1⟩ ⟨b, hb.2.1⟩ ⟨h, hb.2.2.1⟩ ⟨w, hb.2.2.2⟩) else 0

/-- Inside the array the extension is x. -/
theorem ext_apply (x : S16x256x128x128.Idx → EReal) (a : Fin 16) (b : Fin 256) (h : Fin 128) (w : Fin 128) :
    ext x a.val b.val h.val w.val = x (ix4 a b h w) := by
  unfold ext
  rw [dif_pos ⟨a.isLt, b.isLt, h.isLt, w.isLt⟩]

/-- The extension of a real-valued array is real-valued. -/
theorem ext_real (x : S16x256x128x128.Idx → EReal) (hx : ∀ i, ∃ r : ℝ, x i = (r : EReal)) (a b h w : ℕ) :
    ∃ r : ℝ, ext x a b h w = (r : EReal) := by
  unfold ext
  split
  · exact hx _
  · exact ⟨0, EReal.coe_zero.symm⟩

/-- The total of the 16×128 window of the plane (p, 128·ci + q) at row-tile k. -/
def tileSum (x : S16x256x128x128.Idx → EReal) (ci k p q : ℕ) : EReal :=
  ∑ h ∈ Finset.range 16, ∑ w ∈ Finset.range 128, ext x p (128 * ci + q) (16 * k + h) w

variable (V : (c : Dev nD) → (b : Ref sig .tc) → Buf (Elt Ideal) ((c : Thread nD τ).loc b))

/-- The entry (p, q, h, w) of the input window at point t is x[p, 128·(t/8) + q, 16·(t%8) + h, w]. -/
theorem iblk_apply (c : Dev nD) (t : Fin cfg0.N) (p : Fin 16) (q : Fin 128) (h : Fin 16) (w : Fin 128) :
    (iblk0 (F := Ideal) V c 0 t : Vec Ideal S16x128x16x128 .f32) (ix4 p q h w)
      = ext (V c main_arg0) p.val (128 * (t.val / 8) + q.val) (16 * (t.val % 8) + h.val) w.val := by
  obtain ⟨e0, e1, e2, e3, -, -⟩ := idx_facts t
  have hN : t.val < 16 := lt_of_lt_of_eq t.isLt N_0
  have hp := p.isLt
  have hq := q.isLt
  have hh := h.isLt
  have hw := w.isLt
  unfold iblk0
  rw [View.read_apply]
  unfold ext
  rw [dif_pos ⟨hp, by omega, by omega, hw⟩]
  show V c main_arg0 _ = V c main_arg0 _
  congr 1
  funext a
  apply Fin.ext
  match a with
  | ⟨0, _⟩ => show win0_0.index t (0 : Fin 4) * 16 + 1 * p.val = p.val; rw [e0]; omega
  | ⟨1, _⟩ => show win0_0.index t (1 : Fin 4) * 128 + 1 * q.val = 128 * (t.val / 8) + q.val; rw [e1]; omega
  | ⟨2, _⟩ => show win0_0.index t (2 : Fin 4) * 16 + 1 * h.val = 16 * (t.val % 8) + h.val; rw [e2]; omega
  | ⟨3, _⟩ => show win0_0.index t (3 : Fin 4) * 128 + 1 * w.val = w.val; rw [e3]; omega

/-- The total of the input window at point t over its rows and lanes, at (p, q), is the tile total of the plane. -/
theorem iblk_sum (c : Dev nD) (t : Fin cfg0.N) (p : Fin 16) (q : Fin 128)
    (x : Vec Ideal S16x128x16x128 .f32) (hx : x = iblk0 (F := Ideal) V c 0 t) :
    ∑ h : Fin 16, ∑ w : Fin 128, x (ix4 p q h w)
      = tileSum (V c main_arg0) (t.val / 8) (t.val % 8) p.val q.val := by
  subst hx
  unfold tileSum
  rw [Finset.sum_range]
  refine Finset.sum_congr rfl fun h _ => ?_
  rw [Finset.sum_range]
  exact Finset.sum_congr rfl fun w _ => iblk_apply V c t p q h w

end Cert.KernelIdeal.AvgBlocks

end
-- ==== Proof.AvgInvariant.lean ====
/-
  The invariant of the accumulation in region 0. After grid point n (channel block n / 8, row-tile n % 8) the entry
  (p, q) of the resident block is the sum, over the row-tiles k ≤ n % 8 of channel block n / 8, of the tile total of
  the plane (p, 128·(n/8) + q) at row-tile k times 2⁻¹⁴: the first row-tile of a channel block starts from the zero
  block, every later one adds to what the point before left.
-/
import proofs.«179027_j52905407152335_2_alg».proof.Proof.Gen.KernelIdeal.Frame
import proofs.«179027_j52905407152335_2_alg».proof.Proof.AvgPieces
import proofs.«179027_j52905407152335_2_alg».proof.Proof.AvgPayload
import proofs.«179027_j52905407152335_2_alg».proof.Proof.AvgBlocks

noncomputable section

open Idealize.ShloMosaic Idealize.ShloMosaic.TcCoe Idealize.SL.Sem Idealize.ShloMosaic.ValueIdx
open Idealize.ShloMosaic.Pipeline (Dat)
open scoped BigOperators

namespace Cert.KernelIdeal.AvgInvariant

open Cert.KernelIdeal Cert.KernelIdeal.Gen Cert.KernelIdeal.AvgBlocks

variable (V : (c : Dev nD) → (b : Ref sig .tc) → Buf (Elt Ideal) ((c : Thread nD τ).loc b))

/-- At the first row-tile of a channel block the resident block restarts: zero plus the tile total times 2⁻¹⁴. -/
theorem first_tile (c : Dev nD) (t : Fin cfg0.N) (h0 : t.val % 8 = 0) (p : Fin 16) (q : Fin 128) :
    (outsAt0 (F := Ideal) V c t.val t.isLt : Vec Ideal S16x128 .f32) (ix2 p q)
      = ∑ k ∈ Finset.range (t.val % 8 + 1),
          tileSum (V c main_arg0) (t.val / 8) k p.val q.val * Ideal.ofBits .f32 0x38800000#32 := by
  refine (congrFun (outsAt0_A V c t h0) (ix2 p q)).trans ?_
  refine (congrFun (AvgPieces.out_A (F := Ideal) c (grid0.coords t) (ms0_0 t) (hs0_0 t) (ms0_1 t) (hs0_1 t)
    ((hcond0_0 t).mpr h0) (iblk0 V c 0 t)) (ix2 p q)).trans ?_
  refine (AvgPayload.update_apply (iblk0 V c 0 t) (k0_pay1 (F := Ideal)) p q).trans ?_
  rw [AvgPayload.zero_apply, zero_add, iblk_sum V c t p q (iblk0 V c 0 t) rfl, h0, zero_add, Finset.sum_range_one]

/-- The invariant, by induction on the grid point. -/
theorem outsAt_eq (c : Dev nD) : ∀ (n : ℕ) (hn : n < cfg0.N) (p : Fin 16) (q : Fin 128),
    (outsAt0 (F := Ideal) V c n hn : Vec Ideal S16x128 .f32) (ix2 p q)
      = ∑ k ∈ Finset.range (n % 8 + 1),
          tileSum (V c main_arg0) (n / 8) k p.val q.val * Ideal.ofBits .f32 0x38800000#32
  | 0, hn, p, q => first_tile V c ⟨0, hn⟩ rfl p q
  | n + 1, hn, p, q => by
    by_cases h0 : (n + 1) % 8 = 0
    · exact first_tile V c ⟨n + 1, hn⟩ h0 p q
    · have ih := outsAt_eq c n (Nat.lt_of_succ_lt hn) p q
      have e1 : (n + 1) / 8 = n / 8 := by omega
      have e2 : (n + 1) % 8 = n % 8 + 1 := by omega
      refine (congrFun (outsAt0_B V c ⟨n + 1, hn⟩ h0) (ix2 p q)).trans ?_
      refine (congrFun (AvgPieces.out_B (F := Ideal) c (grid0.coords ⟨n + 1, hn⟩) (ms0_0 ⟨n + 1, hn⟩) (hs0_0 ⟨n + 1, hn⟩)
        (ms0_1 ⟨n + 1, hn⟩) (hs0_1 ⟨n + 1, hn⟩) (fun h => h0 ((hcond0_0 ⟨n + 1, hn⟩).mp h)) (iblk0 V c 0 ⟨n + 1, hn⟩)
        (outsAt0 V c n (Nat.lt_of_succ_lt hn))) (ix2 p q)).trans ?_
      refine (AvgPayload.update_apply (iblk0 V c 0 ⟨n + 1, hn⟩) (outsAt0 V c n (Nat.lt_of_succ_lt hn)) p q).trans ?_
      refine (congrArg₂ (· + ·) ih (congrArg (· * Ideal.ofBits .f32 0x38800000#32)
        (iblk_sum V c ⟨n + 1, hn⟩ p q (iblk0 V c 0 ⟨n + 1, hn⟩) rfl))).trans ?_
      show (∑ k ∈ Finset.range (n % 8 + 1), tileSum (V c main_arg0) (n / 8) k p.val q.val * Ideal.ofBits .f32 0x38800000#32)
          + tileSum (V c main_arg0) ((n + 1) / 8) ((n + 1) % 8) p.val q.val * Ideal.ofBits .f32 0x38800000#32
        = ∑ k ∈ Finset.range ((n + 1) % 8 + 1), tileSum (V c main_arg0) ((n + 1) / 8) k p.val q.val * Ideal.ofBits .f32 0x38800000#32
      rw [e1, e2]
      exact (Finset.sum_range_succ _ _).symm

end Cert.KernelIdeal.AvgInvariant

end
-- ==== Proof.AvgRegion.lean ====
/-
  Region 0 of the kernel: the mean of every plane (n, c) of x, accumulated over the 8 row-tiles of the plane.

  The grid is 2 × 8. Point t = 8·ci + hi reads the window x[0:16, 128·ci : 128·ci+128, 16·hi : 16·hi+16, 0:128] and
  updates the resident block avg[0:16, 128·ci : 128·ci+128]: at hi = 0 the block restarts from zero, and every point
  adds the total of its 16×128 window of the plane, scaled by 2⁻¹⁴. After point (ci, hi) the entry (p, q) of the block
  is Σ_{k ≤ hi} (Σ_{h<16} Σ_w x[p, 128·ci+q, 16·k+h, w]) · 2⁻¹⁴; the block is written back after hi = 7, when, for
  real-valued x, this is (Σ_{h<128} Σ_w x[p, 128·ci+q, h, w]) · 2⁻¹⁴: the mean of the plane.
-/
import proofs.«179027_j52905407152335_2_alg».proof.Proof.Gen.KernelIdeal.Frame
import proofs.«179027_j52905407152335_2_alg».proof.Proof.Spec
import proofs.«179027_j52905407152335_2_alg».proof.Proof.AvgPieces
import proofs.«179027_j52905407152335_2_alg».proof.Proof.AvgPayload
import proofs.«179027_j52905407152335_2_alg».proof.Proof.AvgSum
import proofs.«179027_j52905407152335_2_alg».proof.Proof.AvgBlocks
import proofs.«179027_j52905407152335_2_alg».proof.Proof.AvgInvariant
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.AvgRegion

open Cert.KernelIdeal Cert.KernelIdeal.Gen Cert.KernelIdeal.AvgBlocks

variable (V : (c : Dev nD) → (b : Ref sig .tc) → Buf (Elt Ideal) ((c : Thread nD τ).loc b))

/-- After the last row-tile of a channel block, for real-valued x, the entry (p, q) of the resident block is the mean
    of the plane (p, 128·(t/8) + q): the eight scaled tile totals add up to the scaled total of the 128 rows. -/
theorem block_final (c : Dev nD)
    (hfin : ∀ i, ∃ r : ℝ, (V c main_arg0 : S16x256x128x128.Idx → EReal) i = (r : EReal))
    (t : Fin cfg0.N) (h7 : t.val % 8 = 7) (p : Fin 16) (q : Fin 128) (cc : Fin 256)
    (hcc : cc.val = 128 * (t.val / 8) + q.val) :
    (outsAt0 (F := Ideal) V c t.val t.isLt : Vec Ideal S16x128 .f32) (ix2 p q)
      = Cert.Spec.avgAt (V c main_arg0) p cc := by
  refine (AvgInvariant.outsAt_eq V c t.val t.isLt p q).trans ?_
  rw [h7, AvgPayload.scale_eq]
  refine (AvgSum.sum_tiles_mul (fun j w => ext (V c main_arg0) p.val (128 * (t.val / 8) + q.val) j w)
    (fun j w => ext_real _ hfin _ _ _ _) (1 / 16384) 16 128 8).trans ?_
  unfold Cert.Spec.avgAt
  congr 1
  show (∑ j ∈ Finset.range 128, ∑ w ∈ Finset.range 128, ext (V c main_arg0) p.val (128 * (t.val / 8) + q.val) j w) = _
  rw [Finset.sum_range]
  refine Finset.sum_congr rfl fun h _ => ?_
  rw [Finset.sum_range]
  refine Finset.sum_congr rfl fun w _ => ?_
  rw [← hcc]
  exact ext_apply _ p cc h w

/-- What a writing-back point (the last row-tile of a channel block) writes back is its block of the means. -/
theorem flushed_eq (c : Dev nD)
    (hfin : ∀ i, ∃ r : ℝ, (V c main_arg0 : S16x256x128x128.Idx → EReal) i = (r : EReal))
    (t : Fin cfg0.N) (hf : (cfg0.win 1).flush t = true) :
    (dat0 (F := Ideal) V c).flushed 1 t
      = ((cfg0.win 1).blk t).view.read (Elt Ideal) (Cert.Spec.avgArr (V c main_arg0)) := by
  have h7 : t.val % 8 = 7 := (flush0_1 t).mp hf
  obtain ⟨-, -, -, -, e0, e1⟩ := idx_facts t
  have hN : t.val < 16 := lt_of_lt_of_eq t.isLt N_0
  show (cfg0.win 1).cut (grid0.coords t) ((dat0 V c).after 1 t) = _
  rw [after0_1]
  funext j
  have hj0 : (j 0).val < 16 := (j 0).isLt
  have hj1 : (j 1).val < 128 := (j 1).isLt
  rw [View.read_apply]
  have hemb : ((cfg0.win 1).blk t).view.emb j
      = (ix2 (⟨(j 0).val, hj0⟩ : Fin 16) (⟨128 * (t.val / 8) + (j 1).val, by omega⟩ : Fin 256) : S16x256.Idx) := by
    funext a
    apply Fin.ext
    match a with
    | ⟨0, _⟩ => show win0_1.index t (0 : Fin 2) * 16 + 1 * (j 0).val = (j 0).val; rw [e0]; omega
    | ⟨1, _⟩ => show win0_1.index t (1 : Fin 2) * 128 + 1 * (j 1).val = 128 * (t.val / 8) + (j 1).val; rw [e1]; omega
  rw [hemb]
  have hx : (cfg0.win 1).xinj (grid0.coords t) j
      = (ix2 (⟨(j 0).val, hj0⟩ : Fin 16) (⟨(j 1).val, hj1⟩ : Fin 128) : S16x128.Idx) := by
    funext a
    match a with
    | ⟨0, _⟩ => rfl
    | ⟨1, _⟩ => rfl
  show (outsAt0 (F := Ideal) V c t.val t.isLt : Vec Ideal S16x128 .f32) ((cfg0.win 1).xinj (grid0.coords t) j) = _
  rw [hx]
  exact block_final V c hfin t h7 _ _ _ rfl

/-- Every entry (n, c) of the [16,256] array lies in the block written back after the last row-tile of channel
    block c / 128. -/
theorem cover (i : S16x256.Idx) :
    ∃ t : Fin cfg0.N, (cfg0.win 1).flush t = true ∧ i ∈ ((cfg0.win 1).blk t).view.set := by
  have h0 : (i 0).val < 16 := (i 0).isLt
  have h1 : (i 1).val < 256 := (i 1).isLt
  have hN : cfg0.N = 16 := N_0
  obtain ⟨t, ht⟩ : ∃ t : Fin cfg0.N, t.val = 8 * ((i 1).val / 128) + 7 := ⟨⟨8 * ((i 1).val / 128) + 7, by rw [hN]; omega⟩, rfl⟩
  obtain ⟨-, -, -, -, e0, e1⟩ := idx_facts t
  refine ⟨t, (flush0_1 t).mpr (by omega), ?_⟩
  show i ∈ ((View.whole main_v0).slice (win0_1.rect t)).set
  rw [View.set_slice_whole, Rect.mem_set_unit]
  intro a
  match a with
  | ⟨0, _⟩ =>
    show win0_1.index t (0 : Fin 2) * 16 ≤ (i 0).val ∧ (i 0).val < win0_1.index t (0 : Fin 2) * 16 + 16
    rw [e0]; omega
  | ⟨1, _⟩ =>
    show win0_1.index t (1 : Fin 2) * 128 ≤ (i 1).val ∧ (i 1).val < win0_1.index t (1 : Fin 2) * 128 + 128
    rw [e1]; omega

/-- For real-valued x, region 0 leaves the means of the planes of x in its output array. -/
theorem arr_avg (c : Dev nD)
    (hfin : ∀ i, ∃ r : ℝ, (V c main_arg0 : S16x256x128x128.Idx → EReal) i = (r : EReal)) :
    ((dat0 (F := Ideal) V c).arrAt 1 cfg0.N : S16x256.Idx → EReal) = Cert.Spec.avgArr (V c main_arg0) :=
  (dat0 (F := Ideal) V c).arrAt_eq_of_cover 1 (Cert.Spec.avgArr (V c main_arg0)) (flushed_eq V c hfin) cover

end Cert.KernelIdeal.AvgRegion

end
-- ==== Proof.KValue.lean ====
/-
  The kernel program's result as one function of its arguments. The second region's write-backs leave
  the five-tap filter of the two arrays it found (ConvRegion); those arrays are, by the host operations
  between the regions, the filter bank regrouped from gate(avg, W) — channel c reading group c mod 2 —
  and the reflect-padded x (the glue modules); and the array the first region leaves is the plane means
  of x when every entry of x is a real number (AvgRegion). Together:

      result = convArr (filtArr (gate (avgArr x) W)) (pad x).
-/
import proofs.«179027_j52905407152335_2_alg».proof.Proof.KRun
import proofs.«179027_j52905407152335_2_alg».proof.Proof.ConvRegion
import proofs.«179027_j52905407152335_2_alg».proof.Proof.KGlueEntry
import proofs.«179027_j52905407152335_2_alg».proof.Proof.KGlueTile
import proofs.«179027_j52905407152335_2_alg».proof.Proof.AvgRegion

noncomputable section

namespace Cert.KernelIdeal.KValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The last boundary's contents at the result buffer, as a function of the launch memory. -/
theorem result_eq (c : Dev nD)
    (hfin : ∀ i, ∃ r : ℝ, (m ((c : Thread nD τ).loc main_arg0) : S16x256x128x128.Idx → EReal) i = (r : EReal)) :
    (W4 (F := Ideal) m ρ c (Proc.devRef .tc main_v13) : S16x256x128x128.Idx → EReal)
      = Cert.Spec.convArr
          (Cert.Spec.filtArr (Glue.gateK (Cert.Spec.avgArr (m ((c : Thread nD τ).loc main_arg0))) (m ((c : Thread nD τ).loc main_arg1))))
          (Glue.padK (m ((c : Thread nD τ).loc main_arg0))) := by
  have h1 : (W4 (F := Ideal) m ρ c (Proc.devRef .tc main_v13) : S16x256x128x128.Idx → EReal)
      = (dat1 (F := Ideal) (V3 m ρ) c).arrAt 2 cfg1.N := W4_arr m ρ c 2
  have h2 : (V1 (F := Ideal) m ρ c main_v0 : S16x256.Idx → EReal) = Cert.Spec.avgArr (m ((c : Thread nD τ).loc main_arg0)) :=
    (W1_arr m ρ c 1).trans (AvgRegion.arr_avg (V0 m ρ) c hfin)
  rw [h1, ConvRegion.conv_final (V3 m ρ) c, Glue.filt_entry m ρ c, Glue.pad_entry m ρ c, Glue.tileK_eq, h2]

/-- The run of the kernel program with its result at that function, when x is real-valued on every core. -/
theorem run (hfin : ∀ (c : Dev nD) i, ∃ r : ℝ, (m ((c : Thread nD τ).loc main_arg0) : S16x256x128x128.Idx → EReal) i = (r : EReal)) :
    θ_run (defs (F := Ideal)) (onTc (τ := τ) (main (F := Ideal))) ⟨m, fun _ => 0, ρ⟩ (fun r => ∀ c : Dev nD,
      r.2.mem ((c.tc : Thread nD τ).loc main_v13)
        = Cert.Spec.convArr
            (Cert.Spec.filtArr (Glue.gateK (Cert.Spec.avgArr (m ((c.tc : Thread nD τ).loc main_arg0))) (m ((c.tc : Thread nD τ).loc main_arg1))))
            (Glue.padK (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c => ⟨(h c).1.trans (result_eq m ρ c (hfin c)), (h c).2⟩) (KRun.run_result m ρ)

end Cert.KernelIdeal.KValue

end
-- ==== Proof.FiniteInput.lean ====
/-
  From the precondition to "every entry of the first argument is a real".

  The precondition says that the conjunction of two "all entries satisfy |·| < +∞" tests is 1. The first conjunct,
  a reduction by "and" over all four axes from the constant 1, being 1 means each entry's comparison is 1; the
  comparison max x (−x) < +∞ (the bit pattern 0x7F800000 is +∞) being 1 excludes x = +∞ and x = −∞; an extended
  real that is neither is a real.
-/
import proofs.«179027_j52905407152335_2_alg».proof.Defs
import Idealize.ShloMosaic.Lib.ReduceAll
import Idealize.ShloMosaic.Lib.ValueIdx
import Idealize.ShloMosaic.PureOps.Ideal

noncomputable section

namespace Cert.KernelIdeal.FiniteInput

open Idealize.ShloMosaic
open Cert.KernelIdeal

/-- The rank-0 shape has one index. -/
instance : Subsingleton Cert.Pre_finite_inputs.S_.Idx := ⟨fun a b => funext fun d => d.elim0⟩

/-- The bit pattern 0x7F800000 (sign clear, all-ones exponent, zero fraction) is +∞. -/
theorem ofBits_inf : Ideal.ofBits .f32 0x7F800000#32 = (⊤ : EReal) := by
  simp [Ideal.ofBits, Ideal.ieee]

/-- An extended real whose absolute value max x (−x) is below +∞ is a real. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- An entry at which |x| < +∞ answers 1 is a real. -/
theorem real_of_cmp {S : Shape} (x : FVec Ideal S .f32) (hb : Cert.Pre_finite_inputs.S_.BroadcastsInDim S ![]) (i : S.Idx)
    (h : cmpf .olt (Host.absf x) (broadcastInDim S ![] hb (constant (F := Ideal) Cert.Pre_finite_inputs.S_ .f32 0x7F800000#32)) i = 1#1) :
    ∃ r : ℝ, (x i : EReal) = (r : EReal) := by
  have h3 : BitVec.ofBool (decide (max (x i : EReal) (-(x i : EReal)) < Ideal.ofBits .f32 0x7F800000#32)) = 1#1 := h
  rw [ofBits_inf] at h3
  refine real_of_abs_lt_top _ ?_
  by_contra hn
  rw [decide_eq_false hn] at h3
  exact absurd h3 (by decide)

/-- From the precondition, every entry of the first argument is a real. -/
theorem x_real [hPre_finite_inputs : Cert.Pre_finite_inputs.Facts] [hKernelIdeal : Cert.KernelIdeal.Facts]
    (m : (ℓ : Loc nD τ sig) → Buf (Elt Ideal) ℓ) (h : Cert.Pre_KernelIdeal m) (c : Dev nD) :
    ∀ i, ∃ r : ℝ, (m ((c.tc : Thread nD τ).loc main_arg0) : S16x256x128x128.Idx → EReal) i = (r : EReal) := by
  intro i
  have h0 := congrFun (h c) ValueIdx.ix0
  dsimp only [Cert.Pre_finite_inputs.fn] at h0
  have h1 := (IntOp.andi_eq_one.1 h0).1
  have h2 := Host.reduce_andi_all _ _ _ _ _ h1 i
  exact real_of_cmp _ _ i h2

end Cert.KernelIdeal.FiniteInput

end
-- ==== Proof.RefRunOps.lean ====
/-
  The reference program read as one straight line.

  The reference computes, from x : [16,256,128,128] and W : [10,256]: the plane means of x (a sum over the two
  last axes divided by 16384), their contraction with W regrouped to [16,2,5] and passed through the logistic
  function, the choice of group (c mod 2) for each of the 256 channels — the remainder written out with its
  sign fix-up, then a gather —, the reflected padding of x by four columns on either side of the last axis,
  and the five-tap sum of products along that axis, the taps added left to right.

  Its functions other than the entry point (the remainder with its select, the padding with its two reversals)
  mean their bodies substituted at the call, each value of a body in a buffer of its own. Below the ninety
  operations are listed in order with the four calls so substituted, the entry point is shown equal to that
  line, and the line's run is stated: every buffer ends at the fold of the operations over the launch contents.
-/
import proofs.«179027_j52905407152335_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry point's ninety operations, in order: seventeen of its own (the means, the contraction, the logistic
    function, the channel counter and the modulus 2), the remainder's twenty-one (its select substituted), ten
    more (the sign fix-up, the gather of the group, the padding's unused scalar), the padding's eight (its two
    reversals substituted), and the thirty-four of the five taps. -/
abbrev ops : List (HloOp τ sig (Elt F)) :=
  [
    StableHlo.nullary main_cst (constant S_ .f32 0x00000000#32),
    StableHlo.binary main_arg0 main_cst main_v0 ((fun x v => Host.reduceAdd x v reducesTo_S16x256x128x128_S16x256_d2_3 h_S_) : (⟨S16x256x128x128, .f32⟩ : BufTy).Contents (Elt F) → (⟨S_, .f32⟩ : BufTy).Contents (Elt F) → (⟨S16x256, .f32⟩ : BufTy).Contents (Elt F)),
    StableHlo.nullary main_cst_0 (constant S_ .f32 0x46800000#32),
    StableHlo.unary main_cst_0 main_v1 (broadcastInDim S16x256 ![] bcast_S_S16x256 : (⟨S_, .f32⟩ : BufTy).Contents (Elt F) → (⟨S16x256, .f32⟩ : BufTy).Contents (Elt F)),
    StableHlo.binary main_v0 main_v1 main_v2 (Host.divf : (⟨S16x256, .f32⟩ : BufTy).Contents (Elt F) → (⟨S16x256, .f32⟩ : BufTy).Contents (Elt F) → (⟨S16x256, .f32⟩ : BufTy).Contents (Elt F)),
    StableHlo.binary main_v2 main_arg1 main_v3 ((fun l r => Host.dotGeneral dot_S16x256_S10x256_S16x10_1_1_0_0_n_n none l r) : (⟨S16x256, .f32⟩ : BufTy).Contents (Elt F) → (⟨S10x256, .f32⟩ : BufTy).Contents (Elt F) → (⟨S16x10, .f32⟩ : BufTy).Contents (Elt F)),
    StableHlo.reshape main_v3 main_v4 rfl shapeCasts_S16x10_S16x2x5,
    StableHlo.unary main_v4 main_v5 (Host.negf : (⟨S16x2x5, .f32⟩ : BufTy).Contents (Elt F) → (⟨S16x2x5, .f32⟩ : BufTy).Contents (Elt F)),
    StableHlo.unary main_v5 main_v6 (Host.exp : (⟨S16x2x5, .f32⟩ : BufTy).Contents (Elt F) → (⟨S16x2x5, .f32⟩ : BufTy).Contents (Elt F)),
    StableHlo.nullary main_cst_1 (constant S_ .f32 0x3F800000#32),
    StableHlo.unary main_cst_1 main_v7 (broadcastInDim S16x2x5 ![] bcast_S_S16x2x5 : (⟨S_, .f32⟩ : BufTy).Contents (Elt F) → (⟨S16x2x5, .f32⟩ : BufTy).Contents (Elt F)),
    StableHlo.binary main_v7 main_v6 main_v8 (addf : (⟨S16x2x5, .f32⟩ : BufTy).Contents (Elt F) → (⟨S16x2x5, .f32⟩ : BufTy).Contents (Elt F) → (⟨S16x2x5, .f32⟩ : BufTy).Contents (Elt F)),
    StableHlo.nullary main_cst_2 (constant S_ .f32 0x3F800000#32),
    StableHlo.unary main_cst_2 main_v9 (broadcastInDim S16x2x5 ![] bcast_S_S16x2x5 : (⟨S_, .f32⟩ : BufTy).Contents (Elt F) → (⟨S16x2x5, .f32⟩ : BufTy).Contents (Elt F)),
    StableHlo.binary main_v9 main_v8 main_v10 (Host.divf : (⟨S16x2x5, .f32⟩ : BufTy).Contents (Elt F) → (⟨S16x2x5, .f32⟩ : BufTy).Contents (Elt F) → (⟨S16x2x5, .f32⟩ : BufTy).Contents (Elt F)),
    StableHlo.nullary main_v11 (iotaInDim S256 32 0),
    StableHlo.nullary main_c (constantI S_ 32 2#32),
    StableHlo.TRef.unary (.of main_c : TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S256 ![] bcast_S_S256),
    StableHlo.TRef.binary (.of main_v11 : TRef sig ⟨S256, .i32⟩) main_call0.v3 main_call0.v4 Host.remsi,
    StableHlo.TRef.nullary main_call0.c_1 (constantI S_ 32 0#32),
    StableHlo.TRef.unary main_call0.c_1 main_call0.v5 (broadcastInDim S256 ![] bcast_S_S256),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S256 ![] bcast_S_S256),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S256 ![] bcast_S_S256),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S256 ![] bcast_S_S256),
    StableHlo.TRef.binary main_call0.v4 main_call0.v13 main_call0.v14 addi,
    StableHlo.TRef.ternary main_call0.v12 main_call0.v14 main_call0.v4 main_call0.v15 select,
    StableHlo.nullary main_c_3 (constantI S_ 32 0#32),
    StableHlo.unary main_c_3 main_v13 (broadcastInDim S256 ![] bcast_S_S256 : (⟨S_, .i32⟩ : BufTy).Contents (Elt F) → (⟨S256, .i32⟩ : BufTy).Contents (Elt F)),
    StableHlo.binary main_v12 main_v13 main_v14 (cmpi .slt : (⟨S256, .i32⟩ : BufTy).Contents (Elt F) → (⟨S256, .i32⟩ : BufTy).Contents (Elt F) → (⟨S256, .i1⟩ : BufTy).Contents (Elt F)),
    StableHlo.nullary main_c_4 (constantI S_ 32 2#32),
    StableHlo.unary main_c_4 main_v15 (broadcastInDim S256 ![] bcast_S_S256 : (⟨S_, .i32⟩ : BufTy).Contents (Elt F) → (⟨S256, .i32⟩ : BufTy).Contents (Elt F)),
    StableHlo.binary main_v12 main_v15 main_v16 (addi : (⟨S256, .i32⟩ : BufTy).Contents (Elt F) → (⟨S256, .i32⟩ : BufTy).Contents (Elt F) → (⟨S256, .i32⟩ : BufTy).Contents (Elt F)),
    StableHlo.ternary main_v14 main_v16 main_v12 main_v17 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v17 main_v18 (broadcastInDim S256x1 ![0] bcast_S256_S256x1_0 : (⟨S256, .i32⟩ : BufTy).Contents (Elt F) → (⟨S256x1, .i32⟩ : BufTy).Contents (Elt F)),
    StableHlo.binary main_v10 main_v18 main_v19 ((fun x i => Host.gather gather_S16x2x5_S256x1_S16x256x5_02_1_n_n_1_1_1615 x i) : (⟨S16x2x5, .f32⟩ : BufTy).Contents (Elt F) → (⟨S256x1, .i32⟩ : BufTy).Contents (Elt F) → (⟨S16x256x5, .f32⟩ : BufTy).Contents (Elt F)),
    StableHlo.nullary main_c_5 (constantI S_ 32 0#32),
    StableHlo.TRef.unary (.of main_arg0 : TRef sig ⟨S16x256x128x128, .f32⟩) main_call1.v0 (extractStridedSlice S16x256x128x1 ![0, 0, 0, 0] · slices_S16x256x128x128_S16x256x128x1_0_0_0_0),
    StableHlo.TRef.unary (.of main_arg0 : TRef sig ⟨S16x256x128x128, .f32⟩) main_call1.v1 (extractStridedSlice S16x256x128x4 ![0, 0, 0, 1] · slices_S16x256x128x128_S16x256x128x4_0_0_0_1),
    StableHlo.TRef.unary main_call1.v1 main_call1.call0.v0 (Host.reverse [3]),
    StableHlo.TRef.binary main_call1.call0.v0 (.of main_arg0 : TRef sig ⟨S16x256x128x128, .f32⟩) main_call1.v3 (fun a b => concatenate S16x256x128x132 3 [⟨S16x256x128x4, a⟩, ⟨S16x256x128x128, b⟩] concatenates_S16x256x128x4_S16x256x128x128_S16x256x128x132_d3),
    StableHlo.TRef.unary main_call1.v3 main_call1.v4 (extractStridedSlice S16x256x128x1 ![0, 0, 0, 131] · slices_S16x256x128x132_S16x256x128x1_0_0_0_131),
    StableHlo.TRef.unary main_call1.v3 main_call1.v5 (extractStridedSlice S16x256x128x4 ![0, 0, 0, 127] · slices_S16x256x128x132_S16x256x128x4_0_0_0_127),
    StableHlo.TRef.unary main_call1.v5 main_call1.call1.v0 (Host.reverse [3]),
    StableHlo.TRef.binary main_call1.v3 main_call1.call1.v0 main_call1.v7 (fun a b => concatenate S16x256x128x136 3 [⟨S16x256x128x132, a⟩, ⟨S16x256x128x4, b⟩] concatenates_S16x256x128x132_S16x256x128x4_S16x256x128x136_d3),
    StableHlo.unary main_v19 main_v21 ((extractStridedSlice S16x256x1 ![0, 0, 0] · slices_S16x256x5_S16x256x1_0_0_0) : (⟨S16x256x5, .f32⟩ : BufTy).Contents (Elt F) → (⟨S16x256x1, .f32⟩ : BufTy).Contents (Elt F)),
    StableHlo.reshape main_v21 main_v22 rfl shapeCasts_S16x256x1_S16x256,
    StableHlo.unary main_v22 main_v23 (broadcastInDim S16x256x1x1 ![0, 1] bcast_S16x256_S16x256x1x1_0_1 : (⟨S16x256, .f32⟩ : BufTy).Contents (Elt F) → (⟨S16x256x1x1, .f32⟩ : BufTy).Contents (Elt F)),
    StableHlo.unary main_v20 main_v24 ((extractStridedSlice S16x256x128x128 ![0, 0, 0, 0] · slices_S16x256x128x136_S16x256x128x128_0_0_0_0) : (⟨S16x256x128x136, .f32⟩ : BufTy).Contents (Elt F) → (⟨S16x256x128x128, .f32⟩ : BufTy).Contents (Elt F)),
    StableHlo.unary main_v23 main_v25 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    StableHlo.binary main_v25 main_v24 main_v26 (mulf : (⟨S16x256x128x128, .f32⟩ : BufTy).Contents (Elt F) → (⟨S16x256x128x128, .f32⟩ : BufTy).Contents (Elt F) → (⟨S16x256x128x128, .f32⟩ : BufTy).Contents (Elt F)),
    StableHlo.unary main_v19 main_v27 ((extractStridedSlice S16x256x1 ![0, 0, 1] · slices_S16x256x5_S16x256x1_0_0_1) : (⟨S16x256x5, .f32⟩ : BufTy).Contents (Elt F) → (⟨S16x256x1, .f32⟩ : BufTy).Contents (Elt F)),
    StableHlo.reshape main_v27 main_v28 rfl shapeCasts_S16x256x1_S16x256,
    StableHlo.unary main_v28 main_v29 (broadcastInDim S16x256x1x1 ![0, 1] bcast_S16x256_S16x256x1x1_0_1 : (⟨S16x256, .f32⟩ : BufTy).Contents (Elt F) → (⟨S16x256x1x1, .f32⟩ : BufTy).Contents (Elt F)),
    StableHlo.unary main_v20 main_v30 ((extractStridedSlice S16x256x128x128 ![0, 0, 0, 2] · slices_S16x256x128x136_S16x256x128x128_0_0_0_2) : (⟨S16x256x128x136, .f32⟩ : BufTy).Contents (Elt F) → (⟨S16x256x128x128, .f32⟩ : BufTy).Contents (Elt F)),
    StableHlo.unary main_v29 main_v31 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    StableHlo.binary main_v31 main_v30 main_v32 (mulf : (⟨S16x256x128x128, .f32⟩ : BufTy).Contents (Elt F) → (⟨S16x256x128x128, .f32⟩ : BufTy).Contents (Elt F) → (⟨S16x256x128x128, .f32⟩ : BufTy).Contents (Elt F)),
    StableHlo.binary main_v26 main_v32 main_v33 (addf : (⟨S16x256x128x128, .f32⟩ : BufTy).Contents (Elt F) → (⟨S16x256x128x128, .f32⟩ : BufTy).Contents (Elt F) → (⟨S16x256x128x128, .f32⟩ : BufTy).Contents (Elt F)),
    StableHlo.unary main_v19 main_v34 ((extractStridedSlice S16x256x1 ![0, 0, 2] · slices_S16x256x5_S16x256x1_0_0_2) : (⟨S16x256x5, .f32⟩ : BufTy).Contents (Elt F) → (⟨S16x256x1, .f32⟩ : BufTy).Contents (Elt F)),
    StableHlo.reshape main_v34 main_v35 rfl shapeCasts_S16x256x1_S16x256,
    StableHlo.unary main_v35 main_v36 (broadcastInDim S16x256x1x1 ![0, 1] bcast_S16x256_S16x256x1x1_0_1 : (⟨S16x256, .f32⟩ : BufTy).Contents (Elt F) → (⟨S16x256x1x1, .f32⟩ : BufTy).Contents (Elt F)),
    StableHlo.unary main_v20 main_v37 ((extractStridedSlice S16x256x128x128 ![0, 0, 0, 4] · slices_S16x256x128x136_S16x256x128x128_0_0_0_4) : (⟨S16x256x128x136, .f32⟩ : BufTy).Contents (Elt F) → (⟨S16x256x128x128, .f32⟩ : BufTy).Contents (Elt F)),
    StableHlo.unary main_v36 main_v38 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    StableHlo.binary main_v38 main_v37 main_v39 (mulf : (⟨S16x256x128x128, .f32⟩ : BufTy).Contents (Elt F) → (⟨S16x256x128x128, .f32⟩ : BufTy).Contents (Elt F) → (⟨S16x256x128x128, .f32⟩ : BufTy).Contents (Elt F)),
    StableHlo.binary main_v33 main_v39 main_v40 (addf : (⟨S16x256x128x128, .f32⟩ : BufTy).Contents (Elt F) → (⟨S16x256x128x128, .f32⟩ : BufTy).Contents (Elt F) → (⟨S16x256x128x128, .f32⟩ : BufTy).Contents (Elt F)),
    StableHlo.unary main_v19 main_v41 ((extractStridedSlice S16x256x1 ![0, 0, 3] · slices_S16x256x5_S16x256x1_0_0_3) : (⟨S16x256x5, .f32⟩ : BufTy).Contents (Elt F) → (⟨S16x256x1, .f32⟩ : BufTy).Contents (Elt F)),
    StableHlo.reshape main_v41 main_v42 rfl shapeCasts_S16x256x1_S16x256,
    StableHlo.unary main_v42 main_v43 (broadcastInDim S16x256x1x1 ![0, 1] bcast_S16x256_S16x256x1x1_0_1 : (⟨S16x256, .f32⟩ : BufTy).Contents (Elt F) → (⟨S16x256x1x1, .f32⟩ : BufTy).Contents (Elt F)),
    StableHlo.unary main_v20 main_v44 ((extractStridedSlice S16x256x128x128 ![0, 0, 0, 6] · slices_S16x256x128x136_S16x256x128x128_0_0_0_6) : (⟨S16x256x128x136, .f32⟩ : BufTy).Contents (Elt F) → (⟨S16x256x128x128, .f32⟩ : BufTy).Contents (Elt F)),
    StableHlo.unary main_v43 main_v45 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    StableHlo.binary main_v45 main_v44 main_v46 (mulf : (⟨S16x256x128x128, .f32⟩ : BufTy).Contents (Elt F) → (⟨S16x256x128x128, .f32⟩ : BufTy).Contents (Elt F) → (⟨S16x256x128x128, .f32⟩ : BufTy).Contents (Elt F)),
    StableHlo.binary main_v40 main_v46 main_v47 (addf : (⟨S16x256x128x128, .f32⟩ : BufTy).Contents (Elt F) → (⟨S16x256x128x128, .f32⟩ : BufTy).Contents (Elt F) → (⟨S16x256x128x128, .f32⟩ : BufTy).Contents (Elt F)),
    StableHlo.unary main_v19 main_v48 ((extractStridedSlice S16x256x1 ![0, 0, 4] · slices_S16x256x5_S16x256x1_0_0_4) : (⟨S16x256x5, .f32⟩ : BufTy).Contents (Elt F) → (⟨S16x256x1, .f32⟩ : BufTy).Contents (Elt F)),
    StableHlo.reshape main_v48 main_v49 rfl shapeCasts_S16x256x1_S16x256,
    StableHlo.unary main_v49 main_v50 (broadcastInDim S16x256x1x1 ![0, 1] bcast_S16x256_S16x256x1x1_0_1 : (⟨S16x256, .f32⟩ : BufTy).Contents (Elt F) → (⟨S16x256x1x1, .f32⟩ : BufTy).Contents (Elt F)),
    StableHlo.unary main_v20 main_v51 ((extractStridedSlice S16x256x128x128 ![0, 0, 0, 8] · slices_S16x256x128x136_S16x256x128x128_0_0_0_8) : (⟨S16x256x128x136, .f32⟩ : BufTy).Contents (Elt F) → (⟨S16x256x128x128, .f32⟩ : BufTy).Contents (Elt F)),
    StableHlo.unary main_v50 main_v52 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    StableHlo.binary main_v52 main_v51 main_v53 (mulf : (⟨S16x256x128x128, .f32⟩ : BufTy).Contents (Elt F) → (⟨S16x256x128x128, .f32⟩ : BufTy).Contents (Elt F) → (⟨S16x256x128x128, .f32⟩ : BufTy).Contents (Elt F)),
    StableHlo.binary main_v47 main_v53 main_v54 (addf : (⟨S16x256x128x128, .f32⟩ : BufTy).Contents (Elt F) → (⟨S16x256x128x128, .f32⟩ : BufTy).Contents (Elt F) → (⟨S16x256x128x128, .f32⟩ : BufTy).Contents (Elt F)) ]

-- ninety binds re-associated: the rewriting under the chain recurses once per statement
set_option maxRecDepth 4096 in
set_option maxHeartbeats 4000000 in
/-- The entry point is that straight line: its two windows and the four functions' bodies unfolded at their calls,
    both sides are one chain of steps once sequencing is reassociated. -/
theorem main_eq (c : Dev nD) : main (F := F) c = seq ops := by
  simp only [main, main_part0, main_part1, fn_remainder.body, fn_where.body, fn_pad.body, fn_flip.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub .., reshape_bufs_sub .., unary_bufs_sub .., unary_bufs_sub .., nullary_bufs_sub .., unary_bufs_sub .., binary_bufs_sub .., nullary_bufs_sub .., unary_bufs_sub .., binary_bufs_sub .., nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

/-- For any float values, from any memory with zero counters: every weakly fair execution of the entry point
    terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefDefs.lean ====
/-
  The reference program's five stages as functions of whole arrays, each the composition of the
  operations the printed program names, in the operand order printed there:
    avgR   the total of every 128×128 plane divided by 16384,
    gateR  the contraction with W, the regrouping to [16,2,5] and the logistic function 1/(1+exp(−·)),
    filtR  the channel-to-group table (c ↦ c mod 2, built from an iota, a signed remainder and its
           sign fix-ups) and the gather along it,
    padR   four reflected columns on either side of the last axis,
    convR  the five taps: column j of the filter bank, spread over the plane, times the padded array
           shifted by 2j; the products added left to right.
-/
import proofs.«179027_j52905407152335_2_alg».proof.ReferenceIdeal
import Idealize.ShloMosaic.PureOps.Ideal

noncomputable section

namespace Cert.ReferenceIdeal.RefDefs

open Idealize.ShloMosaic Cert.ReferenceIdeal
open Cert.ReferenceIdeal.Facts₀ Cert.ReferenceIdeal.Facts

variable [Cert.ReferenceIdeal.Facts]

/-- %0, %1, %2: the reduce-add over axes [2,3] from 0, divided by the constant 16384 spread over [16,256]. -/
def avgR (x : FVec Ideal S16x256x128x128 .f32) : FVec Ideal S16x256 .f32 :=
  Host.divf
    (Host.reduceAdd x (constant (F := Ideal) S_ .f32 0x00000000#32) reducesTo_S16x256x128x128_S16x256_d2_3 h_S_)
    (broadcastInDim S16x256 ![] bcast_S_S16x256 (constant (F := Ideal) S_ .f32 0x46800000#32))

/-- %3 … %10: the contraction with W, regrouped to [16,2,5], then 1 / (1 + exp (−·)). -/
def gateR (a : FVec Ideal S16x256 .f32) (W : FVec Ideal S10x256 .f32) : FVec Ideal S16x2x5 .f32 :=
  Host.divf
    (broadcastInDim S16x2x5 ![] bcast_S_S16x2x5 (constant (F := Ideal) S_ .f32 0x3F800000#32))
    (addf
      (broadcastInDim S16x2x5 ![] bcast_S_S16x2x5 (constant (F := Ideal) S_ .f32 0x3F800000#32))
      (Host.exp (Host.negf
        (shapeCast S16x2x5
          (Host.dotGeneral (F := Ideal) dot_S16x256_S10x256_S16x10_1_1_0_0_n_n none a W)
          shapeCasts_S16x10_S16x2x5))))

/-- @remainder's %2: the divisor 2, replaced by 1 were it 0. -/
def divisor : IVec S_ 32 :=
  select (cmpi .eq (constantI S_ 32 2#32) (constantI S_ 32 0#32)) (constantI S_ 32 1#32) (constantI S_ 32 2#32)

/-- @remainder's %4: the signed remainder of the iota by the divisor. -/
def rem4 : IVec S256 32 :=
  Host.remsi (iotaInDim S256 32 0) (broadcastInDim S256 ![] bcast_S_S256 divisor)

/-- %12 (@remainder's %15): the remainder moved to the divisor's sign. -/
def rem12 : IVec S256 32 :=
  select
    (andi
      (cmpi .ne
        (cmpi .slt rem4 (broadcastInDim S256 ![] bcast_S_S256 (constantI S_ 32 0#32)))
        (broadcastInDim S256 ![] bcast_S_S256 (cmpi .slt divisor (constantI S_ 32 0#32))))
      (cmpi .ne rem4 (broadcastInDim S256 ![] bcast_S_S256 (constantI S_ 32 0#32))))
    (addi rem4 (broadcastInDim S256 ![] bcast_S_S256 divisor))
    rem4

/-- %11 … %18: the channel-to-group table as a column of words. -/
def groupIdx : IVec S256x1 32 :=
  broadcastInDim S256x1 ![0] bcast_S256_S256x1_0
    (select
      (cmpi .slt rem12 (broadcastInDim S256 ![] bcast_S_S256 (constantI S_ 32 0#32)))
      (addi rem12 (broadcastInDim S256 ![] bcast_S_S256 (constantI S_ 32 2#32)))
      rem12)

/-- %19: the gather of the gate along the table. -/
def filtR (f : FVec Ideal S16x2x5 .f32) : FVec Ideal S16x256x5 .f32 :=
  Host.gather gather_S16x2x5_S256x1_S16x256x5_02_1_n_n_1_1_1615 f groupIdx

/-- @_pad's %3: columns 1 … 4 reversed, then the array. -/
def padL (x : FVec Ideal S16x256x128x128 .f32) : FVec Ideal S16x256x128x132 .f32 :=
  concatenate S16x256x128x132 3
    [⟨S16x256x128x4, Host.reverse [3] (extractStridedSlice S16x256x128x4 ![0, 0, 0, 1] x slices_S16x256x128x128_S16x256x128x4_0_0_0_1)⟩,
     ⟨S16x256x128x128, x⟩]
    concatenates_S16x256x128x4_S16x256x128x128_S16x256x128x132_d3

/-- %20 (@_pad's %7): the left-padded array, then its columns 127 … 130 reversed. -/
def padR (x : FVec Ideal S16x256x128x128 .f32) : FVec Ideal S16x256x128x136 .f32 :=
  concatenate S16x256x128x136 3
    [⟨S16x256x128x132, padL x⟩,
     ⟨S16x256x128x4, Host.reverse [3] (extractStridedSlice S16x256x128x4 ![0, 0, 0, 127] (padL x) slices_S16x256x128x132_S16x256x128x4_0_0_0_127)⟩]
    concatenates_S16x256x128x132_S16x256x128x4_S16x256x128x136_d3

/-- One tap: a column of the filter bank ([16,256,1]) regrouped to [16,256], spread to [16,256,1,1]
    and then over the plane, times a slice of the padded array. -/
def tap (Fj : FVec Ideal S16x256x1 .f32) (Pj : FVec Ideal S16x256x128x128 .f32) : FVec Ideal S16x256x128x128 .f32 :=
  mulf
    (broadcastInDim S16x256x128x128 ![0, 1, 2, 3] bcast_S16x256x1x1_S16x256x128x128_0_1_2_3
      (broadcastInDim S16x256x1x1 ![0, 1] bcast_S16x256_S16x256x1x1_0_1
        (shapeCast S16x256 Fj shapeCasts_S16x256x1_S16x256)))
    Pj

/-- %21 … %54: the five taps added left to right. -/
def convR (F : FVec Ideal S16x256x5 .f32) (P : FVec Ideal S16x256x128x136 .f32) : FVec Ideal S16x256x128x128 .f32 :=
  addf (addf (addf (addf
    (tap (extractStridedSlice S16x256x1 ![0, 0, 0] F slices_S16x256x5_S16x256x1_0_0_0)
         (extractStridedSlice S16x256x128x128 ![0, 0, 0, 0] P slices_S16x256x128x136_S16x256x128x128_0_0_0_0))
    (tap (extractStridedSlice S16x256x1 ![0, 0, 1] F slices_S16x256x5_S16x256x1_0_0_1)
         (extractStridedSlice S16x256x128x128 ![0, 0, 0, 2] P slices_S16x256x128x136_S16x256x128x128_0_0_0_2)))
    (tap (extractStridedSlice S16x256x1 ![0, 0, 2] F slices_S16x256x5_S16x256x1_0_0_2)
         (extractStridedSlice S16x256x128x128 ![0, 0, 0, 4] P slices_S16x256x128x136_S16x256x128x128_0_0_0_4)))
    (tap (extractStridedSlice S16x256x1 ![0, 0, 3] F slices_S16x256x5_S16x256x1_0_0_3)
         (extractStridedSlice S16x256x128x128 ![0, 0, 0, 6] P slices_S16x256x128x136_S16x256x128x128_0_0_0_6)))
    (tap (extractStridedSlice S16x256x1 ![0, 0, 4] F slices_S16x256x5_S16x256x1_0_0_4)
         (extractStridedSlice S16x256x128x128 ![0, 0, 0, 8] P slices_S16x256x128x136_S16x256x128x128_0_0_0_8))

end Cert.ReferenceIdeal.RefDefs

end
-- ==== Proof.RefRun.lean ====
/-
  The reference program's result as a composition of five whole-array stages.

  Unrolling the fold of the ninety operations at the result buffer gives one term of the two arguments' contents:
  the five-tap sum of products (convR) of the filter bank — the gather along c mod 2 (filtR) of the logistic gate
  (gateR) of the plane means (avgR) and W — with the reflected padding (padR) of x. The fold is a computation: each
  operation either writes the buffer read, and the value is its function of its operands' contents, or leaves it.
  The two argument buffers are written by no operation. The run then states these three facts of every final state.
-/
import proofs.«179027_j52905407152335_2_alg».proof.Proof.RefRunOps
import proofs.«179027_j52905407152335_2_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefDefs

-- the reduction, the gather, the reversal and the concatenation stay folded: the equation never looks inside them
attribute [local irreducible] Host.reduceAdd Host.gather Host.reverse concatenate in
set_option maxRecDepth 8192 in
set_option maxHeartbeats 4000000 in
/-- The fold at the result buffer is the composition of the five stages: each operation's result is rewritten at
    the buffer it writes to its function's value of its operands' contents and at any other buffer to what was
    there; what is left are the stages' definitions unfolded, the regroupings and the moves of a value between a
    buffer's type and its tensor type being the identity at these literal buffers. -/
theorem out_eq (V : Valuation τ sig (Elt Ideal)) :
    after (ops (F := Ideal)) V (main_v54 : DevRef τ sig)
      = convR (filtR (gateR (avgR (V (main_arg0 : DevRef τ sig))) (V (main_arg1 : DevRef τ sig)))) (padR (V (main_arg0 : DevRef τ sig))) := by
  after_results_simp
  rfl

/-- No operation writes the first argument's buffer. -/
theorem arg0_eq (V : Valuation τ sig (Elt Ideal)) :
    after (ops (F := Ideal)) V (main_arg0 : DevRef τ sig) = V (main_arg0 : DevRef τ sig) := by
  after_results_simp

/-- No operation writes the second argument's buffer. -/
theorem arg1_eq (V : Valuation τ sig (Elt Ideal)) :
    after (ops (F := Ideal)) V (main_arg1 : DevRef τ sig) = V (main_arg1 : DevRef τ sig) := by
  after_results_simp

/-- At the ideal reading, from any memory with zero counters: every weakly fair execution of the reference terminates,
    and every final state has the result buffer at the five stages' composition of the arguments' launch contents and
    the two arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54)
          = convR (filtR (gateR (avgR (m ((c.tc : Thread nD τ).loc main_arg0))) (m ((c.tc : Thread nD τ).loc main_arg1))))
              (padR (m ((c.tc : Thread nD τ).loc main_arg0)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v54).trans (out_eq _), (h c main_arg0).trans (arg0_eq _), (h c main_arg1).trans (arg1_eq _)⟩)
    (run_after m ρ)

end Cert.ReferenceIdeal.RefRun

end
-- ==== Proof.RefValueConv.lean ====
/-
  The reference's five-tap stage read at an index: every tap is a column of the filter bank, spread
  over the plane, times a shifted slice of the padded array, so at (n, c, h, w) the stage is the
  left-to-right sum of F[n,c,j] · P[n,c,h,w+2j].
-/
import proofs.«179027_j52905407152335_2_alg».proof.Proof.RefDefs
import proofs.«179027_j52905407152335_2_alg».proof.Proof.Spec
import Idealize.ShloMosaic.Lib.ValueIdx
import Idealize.ShloMosaic.Lib.Pipeline.Value
import Idealize.ShloMosaic.Lib.ValueLayout

noncomputable section

namespace Cert.ReferenceIdeal.RefValue

open Idealize.ShloMosaic Idealize.ShloMosaic.ValueIdx Cert.ReferenceIdeal Cert.ReferenceIdeal.RefDefs
open Cert.ReferenceIdeal.Facts₀ Cert.ReferenceIdeal.Facts

variable [Cert.ReferenceIdeal.Facts]

/-- A one-column slice of the filter bank at offset o reads column o. -/
theorem sliceF_apply (F : FVec Ideal S16x256x5 .f32) (o : Nat) (ho : o < 5)
    (hs : S16x256x5.Slices ![0, 0, o] S16x256x1) (n : Fin 16) (c : Fin 256) :
    extractStridedSlice S16x256x1 ![0, 0, o] F hs (ix3 n c (0 : Fin 1)) = F (ix3 n c (⟨o, ho⟩ : Fin 5)) := by
  refine extractStridedSlice_apply ![0, 0, o] F hs (ix3 n c (0 : Fin 1)) (ix3 n c (⟨o, ho⟩ : Fin 5)) ?_
  intro a
  match a with
  | ⟨0, _⟩ => show n.val = 0 + n.val; omega
  | ⟨1, _⟩ => show c.val = 0 + c.val; omega
  | ⟨2, _⟩ => show o = o + 0; omega

/-- A 128-column slice of the padded array at offset o reads column w + o. -/
theorem sliceP_apply (P : FVec Ideal S16x256x128x136 .f32) (o : Nat) (ho : o ≤ 8)
    (hs : S16x256x128x136.Slices ![0, 0, 0, o] S16x256x128x128) (n : Fin 16) (c : Fin 256) (h : Fin 128) (w : Fin 128) :
    extractStridedSlice S16x256x128x128 ![0, 0, 0, o] P hs (ix4 n c h w) = P (ix4 n c h (Cert.Spec.col w o ho)) := by
  refine extractStridedSlice_apply ![0, 0, 0, o] P hs (ix4 n c h w) (ix4 n c h (Cert.Spec.col w o ho)) ?_
  intro a
  match a with
  | ⟨0, _⟩ => show n.val = 0 + n.val; omega
  | ⟨1, _⟩ => show c.val = 0 + c.val; omega
  | ⟨2, _⟩ => show h.val = 0 + h.val; omega
  | ⟨3, _⟩ => show w.val + o = o + w.val; omega

/-- One tap at (n, c, h, w): the column's entry (n, c) times the slice's entry. -/
theorem tap_apply (Fj : FVec Ideal S16x256x1 .f32) (Pj : FVec Ideal S16x256x128x128 .f32)
    (n : Fin 16) (c : Fin 256) (h : Fin 128) (w : Fin 128) :
    tap Fj Pj (ix4 n c h w) = Fj (ix3 n c (0 : Fin 1)) * Pj (ix4 n c h w) := by
  unfold tap
  rw [mulf_apply]
  congr 1
  refine (broadcastInDim_apply ![0, 1, 2, 3] bcast_S16x256x1x1_S16x256x128x128_0_1_2_3 _ (ix4 n c h w)
    (ix4 n c (0 : Fin 1) (0 : Fin 1)) ?_).trans ?_
  · intro a
    match a with
    | ⟨0, _⟩ => rfl
    | ⟨1, _⟩ => rfl
    | ⟨2, _⟩ => rfl
    | ⟨3, _⟩ => rfl
  refine (broadcastInDim_apply ![0, 1] bcast_S16x256_S16x256x1x1_0_1 _ (ix4 n c (0 : Fin 1) (0 : Fin 1))
    (ix2 n c) ?_).trans ?_
  · intro a
    match a with
    | ⟨0, _⟩ => rfl
    | ⟨1, _⟩ => rfl
  refine shapeCast_apply Fj shapeCasts_S16x256x1_S16x256 (ix2 n c) (ix3 n c (0 : Fin 1)) ?_
  rw [Shape.rowMajor_val_three, Shape.rowMajor_val_two]
  show (n.val * 256 + c.val) * 1 + 0 = n.val * 256 + c.val
  omega

/-- The reference's five-tap stage is the specification's. -/
theorem convR_eq (F : FVec Ideal S16x256x5 .f32) (P : FVec Ideal S16x256x128x136 .f32) :
    convR F P = Cert.Spec.convArr F P := by
  funext i
  obtain ⟨n, c, h, w, rfl⟩ : ∃ (n : Fin 16) (c : Fin 256) (h : Fin 128) (w : Fin 128), i = ix4 n c h w :=
    ⟨i 0, i 1, i 2, i 3, eq_ix4 i⟩
  rw [Cert.Spec.convArr_apply]
  unfold convR Cert.Spec.convAt
  simp only [addf_apply, tap_apply]
  rw [sliceF_apply F 0 (by decide), sliceF_apply F 1 (by decide), sliceF_apply F 2 (by decide),
    sliceF_apply F 3 (by decide), sliceF_apply F 4 (by decide),
    sliceP_apply P 0 (by decide), sliceP_apply P 2 (by decide), sliceP_apply P 4 (by decide),
    sliceP_apply P 6 (by decide), sliceP_apply P 8 (by decide)]
  rfl

end Cert.ReferenceIdeal.RefValue

end
-- ==== Proof.RefValueAvg.lean ====
/-
  The reference's mean read at an index: the reduce-add over the two plane axes from 0 is the double
  sum over the plane's rows and columns, and the quotient by 16384 is the product with 1/16384 on
  every extended real.
-/
import proofs.«179027_j52905407152335_2_alg».proof.Proof.RefDefs
import proofs.«179027_j52905407152335_2_alg».proof.Proof.Spec
import Idealize.ShloMosaic.Lib.ValueIdx
import Idealize.ShloMosaic.Lib.IdealHost
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.RefDefs
open Cert.ReferenceIdeal.Facts₀ Cert.ReferenceIdeal.Facts
open scoped BigOperators

variable [Cert.ReferenceIdeal.Facts]

/-- The f32 pattern 0x46800000 is the real 16384. -/
theorem ofBits_16384 : Ideal.ofBits .f32 0x46800000#32 = ((16384 : ℝ) : EReal) := by
  simp [Ideal.ofBits, Ideal.ieee, -EReal.coe_mul]; norm_num

/-- The indices of x that drop to (n, c) when axes 2 and 3 are removed are the plane (n, c, ·, ·):
    the sum over them is the double sum over rows and columns. -/
theorem sum_plane (hr : S16x256x128x128.ReducesTo [2, 3] S16x256) (x : S16x256x128x128.Idx → EReal)
    (n : Fin 16) (c : Fin 256) :
    ∑ i ∈ Finset.univ.filter (fun i => hr.drop i = ix2 n c), x i
      = ∑ h : Fin 128, ∑ w : Fin 128, x (ix4 n c h w) := by
  rw [← Finset.sum_product' (Finset.univ : Finset (Fin 128)) (Finset.univ : Finset (Fin 128))
    (fun h w => x (ix4 n c h w))]
  have h0 : ∀ i : S16x256x128x128.Idx, ((hr.drop i 0 : Fin 16) : Nat) = ((i 0 : Fin 16) : Nat) := fun i =>
    Shape.ReducesTo.drop_apply_val_of_eq hr i 0 0
  have h1 : ∀ i : S16x256x128x128.Idx, ((hr.drop i 1 : Fin 256) : Nat) = ((i 1 : Fin 256) : Nat) := fun i =>
    Shape.ReducesTo.drop_apply_val_of_eq hr i 1 1
  refine Finset.sum_bij' (fun i _ => ((i 2 : Fin 128), (i 3 : Fin 128))) (fun p _ => ix4 n c p.1 p.2) ?_ ?_ ?_ ?_ ?_
  · intro i _; exact Finset.mem_product.2 ⟨Finset.mem_univ _, Finset.mem_univ _⟩
  · intro p _
    refine Finset.mem_filter.2 ⟨Finset.mem_univ _, ?_⟩
    funext b
    match b with
    | ⟨0, _⟩ => exact Fin.ext (h0 _)
    | ⟨1, _⟩ => exact Fin.ext (h1 _)
  · intro i hi
    have hd : hr.drop i = ix2 n c := (Finset.mem_filter.1 hi).2
    have e0 : (i 0 : Fin 16) = n := Fin.ext ((h0 i).symm.trans (congrArg (fun j : S16x256.Idx => ((j 0 : Fin 16) : Nat)) hd))
    have e1 : (i 1 : Fin 256) = c := Fin.ext ((h1 i).symm.trans (congrArg (fun j : S16x256.Idx => ((j 1 : Fin 256) : Nat)) hd))
    show ix4 n c (i 2) (i 3) = i
    rw [← e0, ← e1]
    exact (eq_ix4 i).symm
  · intro p _; rfl
  · intro i hi
    have hd : hr.drop i = ix2 n c := (Finset.mem_filter.1 hi).2
    have e0 : (i 0 : Fin 16) = n := Fin.ext ((h0 i).symm.trans (congrArg (fun j : S16x256.Idx => ((j 0 : Fin 16) : Nat)) hd))
    have e1 : (i 1 : Fin 256) = c := Fin.ext ((h1 i).symm.trans (congrArg (fun j : S16x256.Idx => ((j 1 : Fin 256) : Nat)) hd))
    show x i = x (ix4 n c (i 2) (i 3))
    rw [← e0, ← e1]
    exact congrArg x (eq_ix4 i)

/-- The reference's mean is the specification's. -/
theorem avgR_eq (x : FVec Ideal S16x256x128x128 .f32) : avgR x = Cert.Spec.avgArr x := by
  funext i
  obtain ⟨n, c, rfl⟩ : ∃ (n : Fin 16) (c : Fin 256), i = ix2 n c := ⟨i 0, i 1, eq_ix2 i⟩
  rw [Cert.Spec.avgArr_apply]
  unfold avgR Cert.Spec.avgAt
  rw [hostDivf_apply, hostReduceAdd_apply, broadcastInDim_scalar_apply, constant_apply, constant_apply,
    ofBits_16384, Ideal.div_coe (by norm_num : (16384 : ℝ) ≠ 0)]
  unfold Ideal.hostReduceAdd
  rw [Ideal.ofBits_zero_f32, zero_add, sum_plane]

end Cert.ReferenceIdeal.RefValue

end
-- ==== Proof.RefValueFilt.lean ====
/-
  The reference's filter bank read at an index: the table of start indices is c ↦ c mod 2 as a word
  (an iota, its signed remainder by 2 and the two sign fix-ups, none of which fires on 0 … 255), and
  the gather along it reads gate[n, c mod 2, j] at (n, c, j).
-/
import proofs.«179027_j52905407152335_2_alg».proof.Proof.RefDefs
import proofs.«179027_j52905407152335_2_alg».proof.Proof.Spec
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.RefDefs
open Cert.ReferenceIdeal.Facts₀ Cert.ReferenceIdeal.Facts

/-- The table's entry for channel c as a word: the remainder of c by 2 (the divisor 2, replaced by 1
    were it 0), moved to the divisor's sign, and 2 added were it negative. -/
def gidx (c : Fin 256) : BitVec 32 :=
  let d : BitVec 32 := Scalar.select (IntOp.cmpi .eq (2#32) (0#32)) (1#32) (2#32)
  let r4 : BitVec 32 := IntOp.remsi .host (BitVec.ofNat 32 c.val) d
  let r12 : BitVec 32 :=
    Scalar.select
      (IntOp.andi (IntOp.cmpi .ne (IntOp.cmpi .slt r4 (0#32)) (IntOp.cmpi .slt d (0#32))) (IntOp.cmpi .ne r4 (0#32)))
      (IntOp.addi r4 d) r4
  Scalar.select (IntOp.cmpi .slt r12 (0#32)) (IntOp.addi r12 (2#32)) r12

/-- Read signed and clamped into [0, 1], the entry is c mod 2. -/
theorem gidx_clamp : ∀ c : Fin 256, min (gidx c).toInt.toNat 1 = c.val % 2 := by
  decide +kernel

variable [Cert.ReferenceIdeal.Facts]

/-- The table at row c is that word. -/
theorem groupIdx_apply (c : Fin 256) : groupIdx (ix2 c (0 : Fin 1)) = gidx c := by
  unfold groupIdx
  refine (broadcastInDim_apply ![0] bcast_S256_S256x1_0 _ (ix2 c (0 : Fin 1)) (ix1 c) ?_).trans ?_
  · intro a
    match a with
    | ⟨0, _⟩ => rfl
  · rfl

/-- The gather read at (n, c, j): the gate at (n, the start index of row c read signed and clamped into [0, 1], j). -/
theorem gather_apply (f : FVec Ideal S16x2x5 .f32) (idx : IVec S256x1 32) (n : Fin 16) (c : Fin 256) (j : Fin 5) :
    Host.gather gather_S16x2x5_S256x1_S16x256x5_02_1_n_n_1_1_1615 f idx (ix3 n c j)
      = f (ix3 n (⟨min (idx (ix2 c (0 : Fin 1))).toInt.toNat 1, by omega⟩ : Fin 2) j) := by
  unfold Host.gather
  congr 1
  funext a
  refine Fin.ext ?_
  have hsi : ∀ k : Fin gather_S16x2x5_S256x1_S16x256x5_02_1_n_n_1_1_1615.startIndexMap.length,
      gather_S16x2x5_S256x1_S16x256x5_02_1_n_n_1_1_1615.siIdx (ix3 n c j) k = ix2 c (0 : Fin 1) := by
    intro k
    funext b
    refine Fin.ext ?_
    match b with
    | ⟨0, _⟩ => rfl
    | ⟨1, _⟩ =>
      have hk : k.val < 1 := k.isLt
      show k.val = 0
      omega
  match a with
  | ⟨0, _⟩ =>
    show gather_S16x2x5_S256x1_S16x256x5_02_1_n_n_1_1_1615.start (ix3 n c j) idx 0
        + gather_S16x2x5_S256x1_S16x256x5_02_1_n_n_1_1_1615.batchCoord (ix3 n c j) 0
        + gather_S16x2x5_S256x1_S16x256x5_02_1_n_n_1_1_1615.offCoord (ix3 n c j) 0 = n.val
    have h1 : gather_S16x2x5_S256x1_S16x256x5_02_1_n_n_1_1_1615.start (ix3 n c j) idx 0 = 0 := rfl
    have h2 : gather_S16x2x5_S256x1_S16x256x5_02_1_n_n_1_1_1615.batchCoord (ix3 n c j) 0 = 0 := rfl
    have h3 : gather_S16x2x5_S256x1_S16x256x5_02_1_n_n_1_1_1615.offCoord (ix3 n c j) 0 = n.val := rfl
    omega
  | ⟨1, _⟩ =>
    show gather_S16x2x5_S256x1_S16x256x5_02_1_n_n_1_1_1615.start (ix3 n c j) idx 1
        + gather_S16x2x5_S256x1_S16x256x5_02_1_n_n_1_1_1615.batchCoord (ix3 n c j) 1
        + gather_S16x2x5_S256x1_S16x256x5_02_1_n_n_1_1_1615.offCoord (ix3 n c j) 1 = min (idx (ix2 c (0 : Fin 1))).toInt.toNat 1
    have h2 : gather_S16x2x5_S256x1_S16x256x5_02_1_n_n_1_1_1615.batchCoord (ix3 n c j) 1 = 0 := rfl
    have h3 : gather_S16x2x5_S256x1_S16x256x5_02_1_n_n_1_1_1615.offCoord (ix3 n c j) 1 = 0 := rfl
    have h1 : gather_S16x2x5_S256x1_S16x256x5_02_1_n_n_1_1_1615.start (ix3 n c j) idx 1
        = min (idx (ix2 c (0 : Fin 1))).toInt.toNat 1 := by
      unfold GatherDims.start
      rw [dif_pos (show (1 : Fin 3) ∈ gather_S16x2x5_S256x1_S16x256x5_02_1_n_n_1_1_1615.startIndexMap from List.mem_singleton.mpr rfl)]
      rw [hsi]
      rfl
    omega
  | ⟨2, _⟩ =>
    show gather_S16x2x5_S256x1_S16x256x5_02_1_n_n_1_1_1615.start (ix3 n c j) idx 2
        + gather_S16x2x5_S256x1_S16x256x5_02_1_n_n_1_1_1615.batchCoord (ix3 n c j) 2
        + gather_S16x2x5_S256x1_S16x256x5_02_1_n_n_1_1_1615.offCoord (ix3 n c j) 2 = j.val
    have h1 : gather_S16x2x5_S256x1_S16x256x5_02_1_n_n_1_1_1615.start (ix3 n c j) idx 2 = 0 := rfl
    have h2 : gather_S16x2x5_S256x1_S16x256x5_02_1_n_n_1_1_1615.batchCoord (ix3 n c j) 2 = 0 := rfl
    have h3 : gather_S16x2x5_S256x1_S16x256x5_02_1_n_n_1_1_1615.offCoord (ix3 n c j) 2 = j.val := rfl
    omega

/-- The reference's filter bank is the specification's. -/
theorem filtR_eq (f : FVec Ideal S16x2x5 .f32) : filtR f = Cert.Spec.filtArr f := by
  funext i
  obtain ⟨n, c, j, rfl⟩ : ∃ (n : Fin 16) (c : Fin 256) (j : Fin 5), i = ix3 n c j := ⟨i 0, i 1, i 2, eq_ix3 i⟩
  rw [Cert.Spec.filtArr_apply]
  unfold filtR Cert.Spec.filtAt
  rw [gather_apply]
  congr 1
  have e : min (groupIdx (ix2 c (0 : Fin 1))).toInt.toNat 1 = c.val % 2 := by
    rw [groupIdx_apply]; exact gidx_clamp c
  have e' : (⟨min (groupIdx (ix2 c (0 : Fin 1))).toInt.toNat 1, by omega⟩ : Fin 2) = ⟨c.val % 2, Nat.mod_lt _ (by decide)⟩ :=
    Fin.ext e
  rw [e']

end Cert.ReferenceIdeal.RefValue

end
-- ==== Proof.lean ====
/-
  Both programs compute, from x : [16,256,128,128] and W : [10,256],

      out[n,c,h,w] = Σ_{j<5} filt[n,c,j] · xp[n,c,h,w+2j]      (the taps added left to right)

  with xp the reflect-padded x, filt[n,c,·] = gate[n, c mod 2, ·], gate the logistic function of the
  regrouped contraction of the plane means avg[n,c] = (Σ_{h,w} x[n,c,h,w]) / 16384 with W.

  The kernel program accumulates the means over eight row tiles, each partial total already scaled by
  2⁻¹⁴ (an exact power of two), regroups gate by a reshape–broadcast–reshape, and filters block by
  block; the reference sums each plane at once and divides by 16384, regroups gate by a gather at
  the indices c mod 2, and filters with whole-array slices. Over the extended reals the two means agree
  because every entry of x is a real number (the precondition): a real factor distributes over a sum of
  reals, and dividing by 16384 is multiplying by 1/16384. Everything after the means is the same function
  on both sides: the contraction, the logistic chain and the padding are spelled identically, the two
  regroupings read the same entry at every index, and the filter adds the same five products in the same
  order.

  The three frame claims are the generated frames (the reference's from its run); the idealization
  rewrote nothing, so its claim is trivial.
-/
import proofs.«179027_j52905407152335_2_alg».proof.Defs
import proofs.«179027_j52905407152335_2_alg».proof.Proof.Gen.Kernel
import proofs.«179027_j52905407152335_2_alg».proof.Proof.Gen.Kernel.Skeleton
import proofs.«179027_j52905407152335_2_alg».proof.Proof.Gen.Kernel.Launch
import proofs.«179027_j52905407152335_2_alg».proof.Proof.Gen.Kernel.Points
import proofs.«179027_j52905407152335_2_alg».proof.Proof.Gen.Kernel.Frame
import proofs.«179027_j52905407152335_2_alg».proof.Proof.Gen.KernelIdeal
import proofs.«179027_j52905407152335_2_alg».proof.Proof.Gen.KernelIdeal.Skeleton
import proofs.«179027_j52905407152335_2_alg».proof.Proof.Gen.KernelIdeal.Launch
import proofs.«179027_j52905407152335_2_alg».proof.Proof.Gen.KernelIdeal.Points
import proofs.«179027_j52905407152335_2_alg».proof.Proof.Gen.KernelIdeal.Frame
import proofs.«179027_j52905407152335_2_alg».proof.Proof.Gen.ReferenceIdeal
import proofs.«179027_j52905407152335_2_alg».proof.Proof.Gen.Pre_finite_inputs
import proofs.«179027_j52905407152335_2_alg».proof.Proof.KValue
import proofs.«179027_j52905407152335_2_alg».proof.Proof.FiniteInput
import proofs.«179027_j52905407152335_2_alg».proof.Proof.RefRun
import proofs.«179027_j52905407152335_2_alg».proof.Proof.RefValueConv
import proofs.«179027_j52905407152335_2_alg».proof.Proof.RefValueAvg
import proofs.«179027_j52905407152335_2_alg».proof.Proof.RefValueFilt
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

open Cert.ReferenceIdeal.RefDefs Cert.ReferenceIdeal.RefValue in
/-- Both runs end at convArr (filtArr (gate (avgArr x) W)) (pad x): the kernel program's by its value
    (the precondition makes x real-valued), the reference's by reading its three index-level stages; the
    two spellings of gate and of pad are one function. -/
theorem algebraic : Cert.algebraic_KernelIdeal_ReferenceIdeal := by
  intro m ρ m' ρ' hpre hagree
  refine ⟨_, Cert.KernelIdeal.KValue.run m ρ (fun c => Cert.KernelIdeal.FiniteInput.x_real m hpre c), ?_⟩
  refine (θ_run Cert.ReferenceIdeal.defs _ _).mono (fun _ h c => ⟨(h c).1.trans ?_, (h c).2⟩)
    (Cert.ReferenceIdeal.RefRun.run m' ρ')
  rw [avgR_eq, filtR_eq, convR_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
